-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_10000" .f32 0x38D1B717#32 ((1 / 10000 : ℝ) : EReal)
  ∧ IdealRules.named_const.Statement Cert.KernelIdeal.κ "inv_10000" .f32 0x38D1B717#32 ((1 / 10000 : ℝ) : EReal)
  ∧ IdealRules.named_const.Statement Cert.KernelIdeal.κ "inv_10000" .f32 0x38D1B717#32 ((1 / 10000 : ℝ) : EReal)
  ∧ IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x256 .f32) (main_arg5 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S256 .f32) (main_arg3 : FVec F S256 .f32) (main_arg4 : FVec F S128x256 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S256 : Shape := ⟨1, ![256]⟩
abbrev S128x256 : Shape := ⟨2, ![128, 256]⟩
abbrev S128 : Shape := ⟨1, ![128]⟩
abbrev S8x128 : Shape := ⟨2, ![8, 128]⟩
abbrev S400x10000 : Shape := ⟨2, ![400, 10000]⟩
abbrev S400x128 : Shape := ⟨2, ![400, 128]⟩
abbrev S1x128 : Shape := ⟨2, ![1, 128]⟩
abbrev S2x128 : Shape := ⟨2, ![2, 128]⟩
abbrev S128x128 : Shape := ⟨2, ![128, 128]⟩
abbrev S1000x128 : Shape := ⟨2, ![1000, 128]⟩

abbrev nBuf : Space → Nat
  | .hbm => 15
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256, .f32⟩
  | .hbm, ⟨3, _⟩ => ⟨S256, .f32⟩
  | .hbm, ⟨4, _⟩ => ⟨S128x256, .f32⟩
  | .hbm, ⟨5, _⟩ => ⟨S128, .f32⟩
  | .hbm, ⟨6, _⟩ => ⟨S10000x128, .bf16⟩
  | .hbm, ⟨7, _⟩ => ⟨S10000x128, .f32⟩
  | .hbm, ⟨8, _⟩ => ⟨S8x128, .f32⟩
  | .hbm, ⟨9, _⟩ => ⟨S2x128, .f32⟩
  | .hbm, ⟨10, _⟩ => ⟨S2x128, .f32⟩
  | .hbm, ⟨11, _⟩ => ⟨S128x128, .f32⟩
  | .hbm, ⟨12, _⟩ => ⟨S128x128, .f32⟩
  | .hbm, ⟨13, _⟩ => ⟨S1x128, .f32⟩
  | .hbm, ⟨14, _⟩ => ⟨S10000x128, .f32⟩
  | .local _ .vmem, ⟨0, _⟩ => ⟨S10000x128, .bf16⟩
  | .local _ .vmem, ⟨1, _⟩ => ⟨S400x10000, .f32⟩
  | .local _ .vmem, ⟨2, _⟩ => ⟨S400x10000, .f32⟩
  | .local _ .vmem, ⟨3, _⟩ => ⟨S400x128, .f32⟩
  | .local _ .vmem, ⟨4, _⟩ => ⟨S400x128, .f32⟩
  | .local _ .vmem, ⟨5, _⟩ => ⟨S400x128, .f32⟩
  | .local _ .vmem, ⟨6, _⟩ => ⟨S400x128, .f32⟩
  | .local _ .vmem, ⟨7, _⟩ => ⟨S8x128, .f32⟩
  | .local _ .vmem, ⟨8, _⟩ => ⟨S8x128, .f32⟩
  | .local _ .vmem, ⟨9, _⟩ => ⟨S2x128, .f32⟩
  | .local _ .vmem, ⟨10, _⟩ => ⟨S2x128, .f32⟩
  | .local _ .vmem, ⟨11, _⟩ => ⟨S128x128, .f32⟩
  | .local _ .vmem, ⟨12, _⟩ => ⟨S128x128, .f32⟩
  | .local _ .vmem, ⟨13, _⟩ => ⟨S1x128, .f32⟩
  | .local _ .vmem, ⟨14, _⟩ => ⟨S1000x128, .f32⟩
  | .local _ .vmem, ⟨15, _⟩ => ⟨S1000x128, .f32⟩
  | .local _ .vmem, ⟨16, _⟩ => ⟨S1000x128, .f32⟩
  | .local _ .vmem, ⟨17, _⟩ => ⟨S1000x128, .f32⟩
  | .local _ .vmem, ⟨18, _⟩ => ⟨S1000x128, .f32⟩
  | .local _ .vmem, ⟨19, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc1_sem7_0 : DmaSem sig := 16
abbrev cc1_sem7_1 : DmaSem sig := 17
abbrev cc1_sem8_0 : DmaSem sig := 18
abbrev cc1_sem8_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S8x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bitsLt_bf16_f32 : FTy.bits .bf16 < FTy.bits .f32
  inb_S8x128_S8x128_0_0 : ∀ a, (![0, 0] : Fin 2 → Nat) a + S8x128.size a ≤ S8x128.size a
  h_S8x128 : 0 < S8x128.numel
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S400x128_S400x128_0_0 : ∀ a, (![0, 0] : Fin 2 → Nat) a + S400x128.size a ≤ S400x128.size a
  h_S400x128 : 0 < S400x128.numel
  inb_S8x128_S1x128_0_0 : ∀ a, (![0, 0] : Fin 2 → Nat) a + S1x128.size a ≤ S8x128.size a
  h_S1x128 : 0 < S1x128.numel
  shapeCasts_S1x128_S1x128 : S1x128.ShapeCasts S1x128
  reduces_S400x128_S128 : S400x128.Reduces [0] S128
  shapeCasts_S128_S1x128 : S128.ShapeCasts S1x128
  inb_S8x128_S1x128_1_0 : ∀ a, (![1, 0] : Fin 2 → Nat) a + S1x128.size a ≤ S8x128.size a
  inb_S8x128_S1x128_2_0 : ∀ a, (![2, 0] : Fin 2 → Nat) a + S1x128.size a ≤ S8x128.size a
  inb_S8x128_S1x128_3_0 : ∀ a, (![3, 0] : Fin 2 → Nat) a + S1x128.size a ≤ S8x128.size a
  shapeCasts_S256_S2x128 : S256.ShapeCasts S2x128
  slices_S128x256_S128x128_0_0 : S128x256.Slices ![0, 0] S128x128
  slices_S128x256_S128x128_0_128 : S128x256.Slices ![0, 128] S128x128
  inb_S2x128_S1x128_0_0 : ∀ a, (![0, 0] : Fin 2 → Nat) a + S1x128.size a ≤ S2x128.size a
  inb_S2x128_S1x128_1_0 : ∀ a, (![1, 0] : Fin 2 → Nat) a + S1x128.size a ≤ S2x128.size a
  inb_S1000x128_S1000x128_0_0 : ∀ a, (![0, 0] : Fin 2 → Nat) a + S1000x128.size a ≤ S1000x128.size a
  h_S1000x128 : 0 < S1000x128.numel
  broadcasts_S1x128_S1000x128 : S1x128.Broadcasts S1000x128
  shapeCasts_S1000x128_S1000x128 : S1000x128.ShapeCasts S1000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  dot_S400x10000_S10000x128_S400x128_1_0_0_1_n_n_wf : DotDims.WF S400x10000 S10000x128 S400x128 [1] [0] [0] [1] [] []
  dot_S1000x128_S128x128_S1000x128_1_1_0_0_n_n_wf : DotDims.WF S1000x128 S128x128 S1000x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .bf16 = 32 ∨ (Rect.block (s := S10000x128) S10000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x128.size a
  hwx0_4 : ∀ i : grid0.Coords, EltTy.bits .f32 = 32 ∨ (Rect.block (s := S8x128) S8x128.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8x128.size a ≤ S8x128.size a
  hwx1_0 : ∀ i : grid1.Coords, EltTy.bits .f32 = 32 ∨ (Rect.block (s := S8x128) S8x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x128.size a ≤ S2x128.size a
  hwx1_1 : ∀ i : grid1.Coords, EltTy.bits .f32 = 32 ∨ (Rect.block (s := S2x128) S2x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x128.size a ≤ S2x128.size a
  hwx1_2 : ∀ i : grid1.Coords, EltTy.bits .f32 = 32 ∨ (Rect.block (s := S2x128) S2x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x128.size a ≤ S10000x128.size a
  hwx1_6 : ∀ i : grid1.Coords, EltTy.bits .f32 = 32 ∨ (Rect.block (s := S10000x128) S1000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x128.size a ≤ S10000x128.size a
  hwx1_7 : ∀ i : grid1.Coords, EltTy.bits .f32 = 32 ∨ (Rect.block (s := S10000x128) S1000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1000x128.size a ≤ S10000x128.size a
  hwx1_8 : ∀ i : grid1.Coords, EltTy.bits .f32 = 32 ∨ (Rect.block (s := S10000x128) S1000x128.size (cc1_transform_8 i) (hinb1_8 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S1000x128_S128x128_S1000x128_1_1_0_0_n_n : DotDims S1000x128 S128x128 S1000x128 where
  lhsContracting := [1]
  rhsContracting := [1]
  lhsNonContracting := [0]
  rhsNonContracting := [0]
  lhsBatch := []
  rhsBatch := []
  wf := dot_S1000x128_S128x128_S1000x128_1_1_0_0_n_n_wf

abbrev win0_0 : Pipeline.Window sig grid0 :=
  Pipeline.Window.ofSpec (Memref.whole main_v0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S400x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S8x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1_1) S8x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg0) S1000x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v1_0) S1000x128.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v7) S1000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S256 : Shape := ⟨1, ![256]⟩
abbrev S128x256 : Shape := ⟨2, ![128, 256]⟩
abbrev S128 : Shape := ⟨1, ![128]⟩
abbrev S10000x256 : Shape := ⟨2, ![10000, 256]⟩
abbrev S_ : Shape := ⟨0, ![]⟩
abbrev S1x256 : Shape := ⟨2, ![1, 256]⟩
abbrev S256x128 : Shape := ⟨2, ![256, 128]⟩
abbrev S1x128 : Shape := ⟨2, ![1, 128]⟩

abbrev nBuf : Space → Nat
  | .hbm => 57
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256, .f32⟩
  | .hbm, ⟨3, _⟩ => ⟨S256, .f32⟩
  | .hbm, ⟨4, _⟩ => ⟨S128x256, .f32⟩
  | .hbm, ⟨5, _⟩ => ⟨S128, .f32⟩
  | .hbm, ⟨6, _⟩ => ⟨S10000x128, .f32⟩
  | .hbm, ⟨7, _⟩ => ⟨S10000x256, .f32⟩
  | .hbm, ⟨8, _⟩ => ⟨S_, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S_, .i32⟩
  | .hbm, ⟨14, _⟩ => ⟨S_, .f32⟩
  | .hbm, ⟨15, _⟩ => ⟨S256, .f32⟩
  | .hbm, ⟨16, _⟩ => ⟨S1x256, .f32⟩
  | .hbm, ⟨17, _⟩ => ⟨S_, .f32⟩
  | .hbm, ⟨18, _⟩ => ⟨S1x256, .f32⟩
  | .hbm, ⟨19, _⟩ => ⟨S1x256, .f32⟩
  | .hbm, ⟨20, _⟩ => ⟨S10000x256, .f32⟩
  | .hbm, ⟨21, _⟩ => ⟨S10000x256, .f32⟩
  | .hbm, ⟨22, _⟩ => ⟨S10000x256, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S256, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S256, .f32⟩
  | .hbm, ⟨35, _⟩ => ⟨S256, .f32⟩
  | .hbm, ⟨36, _⟩ => ⟨S1x256, .f32⟩
  | .hbm, ⟨37, _⟩ => ⟨S10000x256, .f32⟩
  | .hbm, ⟨38, _⟩ => ⟨S10000x256, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S256, .f32⟩
  | .hbm, ⟨43, _⟩ => ⟨S1x256, .f32⟩
  | .hbm, ⟨44, _⟩ => ⟨S10000x256, .f32⟩
  | .hbm, ⟨45, _⟩ => ⟨S10000x256, .f32⟩
  | .hbm, ⟨46, _⟩ => ⟨S1x256, .f32⟩
  | .hbm, ⟨47, _⟩ => ⟨S10000x256, .f32⟩
  | .hbm, ⟨48, _⟩ => ⟨S10000x256, .f32⟩
  | .hbm, ⟨49, _⟩ => ⟨S1x256, .f32⟩
  | .hbm, ⟨50, _⟩ => ⟨S10000x256, .f32⟩
  | .hbm, ⟨51, _⟩ => ⟨S10000x256, .f32⟩
  | .hbm, ⟨52, _⟩ => ⟨S256x128, .f32⟩
  | .hbm, ⟨53, _⟩ => ⟨S10000x128, .f32⟩
  | .hbm, ⟨54, _⟩ => ⟨S1x128, .f32⟩
  | .hbm, ⟨55, _⟩ => ⟨S10000x128, .f32⟩
  | .hbm, ⟨56, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_cst_3 : Ref sig .tc := ⟨.hbm, 30, rfl⟩
abbrev main_call0_v12 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst_1 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩

abbrev nD : Nat := 1
abbrev τ : Topo := Topo.v7x

variable {F : FTy → Type} [FloatOps F]

class Facts₀ : Prop where
  concatenates_S10000x128_S10000x128_S10000x256_d1 : Shape.Concatenates [S10000x128, S10000x128] S10000x256 1
  reducesTo_S10000x256_S256_d0 : S10000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S10000x256_0_1 : S1x256.BroadcastsInDim S10000x256 (![0, 1] : Fin 2 → Fin S10000x256.rank)
  transposes_S128x256_S256x128_1_0 : S128x256.Transposes [1, 0] S256x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.KRun.lean ====
/-
  The idealized kernel's run with its result buffer named.

  @main is four segments: the host's rounding of x, the first pass, the host's re-laying of γ, β, W and b, the
  second pass. The buffer contents at each boundary are a fold from the launch memory (`W0` … `W4` of the frame
  proof); at the end every unscoped buffer holds `W4`, and so does the result buffer: what the second pass's
  write-backs leave of its output window.
-/
import proofs.«116730_g22660247454026_cont_sun_m_460_4_alg».proof.Defs
import proofs.«116730_g22660247454026_cont_sun_m_460_4_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run_named : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

/-- The result buffer at the last boundary is what the second pass's write-backs leave of its output window. -/
theorem W4_result (c : Dev nD) : W4 m ρ c (Proc.devRef .tc main_v7) = (dat1 (V3 m ρ) c).arrAt 8 cfg1.N :=
  W4_arr m ρ c 8

end Cert.KernelIdeal.KRun

end
-- ==== Proof.KFold.lean ====
/-
  What the two passes find in their windows' arrays, read back to the launch memory.

  The first pass is entered after the host has rounded x to bf16 (the identity on extended reals): its windows
  hold that copy, adj and x. The second pass is entered after the host has re-laid γ and β as two rows of 128,
  cut W into its two column halves and re-laid b as a row; its other windows hold x and the first pass's two
  output arrays, which nothing in between writes.
-/
import proofs.«116730_g22660247454026_cont_sun_m_460_4_alg».proof.Defs
import proofs.«116730_g22660247454026_cont_sun_m_460_4_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.KFold

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## At the first pass's entry -/

theorem V1_arg0 (c : Dev nD) : V1 m ρ c main_arg0 = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg0) = W0 m ρ c (Proc.devRef .tc main_arg0))

theorem V1_arg1 (c : Dev nD) : V1 m ρ c main_arg1 = m ((c : Thread nD τ).loc main_arg1) :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg1) = W0 m ρ c (Proc.devRef .tc main_arg1))

/-- The rounded copy of x holds x's extended reals. -/
theorem V1_v0 (c : Dev nD) : (V1 m ρ c main_v0 : S10000x128.Idx → EReal) = m ((c : Thread nD τ).loc main_arg0) := by
  show StableHlo.after hostOps0 (W0 m ρ c) (Proc.devRef .tc main_v0) = _
  after_results
  rfl

/-! ## Between the passes: what the first pass leaves, and the arguments -/

theorem W2_arg0 (c : Dev nD) : W2 m ρ c (Proc.devRef .tc main_arg0) = m ((c : Thread nD τ).loc main_arg0) :=
  ((W2_arr m ρ c 2).trans (((dat0 (V1 m ρ) c).arrAt_in 2 rfl _).trans (A_eq0 (V1 m ρ) c 2))).trans (V1_arg0 m ρ c)

theorem W2_arg2 (c : Dev nD) : W2 m ρ c (Proc.devRef .tc main_arg2) = m ((c : Thread nD τ).loc main_arg2) :=
  (W2_of_ne m ρ c main_arg2 (by decide)).trans
    (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg2) = W0 m ρ c (Proc.devRef .tc main_arg2))

theorem W2_arg3 (c : Dev nD) : W2 m ρ c (Proc.devRef .tc main_arg3) = m ((c : Thread nD τ).loc main_arg3) :=
  (W2_of_ne m ρ c main_arg3 (by decide)).trans
    (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg3) = W0 m ρ c (Proc.devRef .tc main_arg3))

theorem W2_arg4 (c : Dev nD) : W2 m ρ c (Proc.devRef .tc main_arg4) = m ((c : Thread nD τ).loc main_arg4) :=
  (W2_of_ne m ρ c main_arg4 (by decide)).trans
    (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg4) = W0 m ρ c (Proc.devRef .tc main_arg4))

theorem W2_arg5 (c : Dev nD) : W2 m ρ c (Proc.devRef .tc main_arg5) = m ((c : Thread nD τ).loc main_arg5) :=
  (W2_of_ne m ρ c main_arg5 (by decide)).trans
    (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg5) = W0 m ρ c (Proc.devRef .tc main_arg5))

/-! ## At the second pass's entry -/

/-- The column sums: the first pass's second output, untouched by the host. -/
theorem V3_sums (c : Dev nD) : V3 m ρ c main_v1_1 = (dat0 (V1 m ρ) c).arrAt 4 cfg0.N :=
  (StableHlo.after_of_forall_not_mem (b := Proc.devRef .tc main_v1_1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_v1_1) = W2 m ρ c (Proc.devRef .tc main_v1_1)).trans
    (W2_arr m ρ c 4)

/-- The aggregation: the first pass's first output, untouched by the host. -/
theorem V3_agg (c : Dev nD) : V3 m ρ c main_v1_0 = (dat0 (V1 m ρ) c).arrAt 3 cfg0.N :=
  (StableHlo.after_of_forall_not_mem (b := Proc.devRef .tc main_v1_0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_v1_0) = W2 m ρ c (Proc.devRef .tc main_v1_0)).trans
    (W2_arr m ρ c 3)

theorem V3_arg0 (c : Dev nD) : V3 m ρ c main_arg0 = m ((c : Thread nD τ).loc main_arg0) :=
  (StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_arg0) = W2 m ρ c (Proc.devRef .tc main_arg0)).trans
    (W2_arg0 m ρ c)

/-- γ as two rows. -/
theorem V3_v2 (c : Dev nD) : (V3 m ρ c main_v2 : S2x128.Idx → EReal)
    = shapeCast S2x128 (m ((c : Thread nD τ).loc main_arg2)) shapeCasts_S256_S2x128 := by
  show StableHlo.after hostOps1 (W2 m ρ c) (Proc.devRef .tc main_v2) = _
  after_results
  rw [W2_arg2]
  rfl

/-- β as two rows. -/
theorem V3_v3 (c : Dev nD) : (V3 m ρ c main_v3 : S2x128.Idx → EReal)
    = shapeCast S2x128 (m ((c : Thread nD τ).loc main_arg3)) shapeCasts_S256_S2x128 := by
  show StableHlo.after hostOps1 (W2 m ρ c) (Proc.devRef .tc main_v3) = _
  after_results
  rw [W2_arg3]
  rfl

/-- W's first 128 columns. -/
theorem V3_v4 (c : Dev nD) : (V3 m ρ c main_v4 : S128x128.Idx → EReal)
    = extractStridedSlice S128x128 ![0, 0] (m ((c : Thread nD τ).loc main_arg4)) slices_S128x256_S128x128_0_0 := by
  show StableHlo.after hostOps1 (W2 m ρ c) (Proc.devRef .tc main_v4) = _
  after_results
  rw [W2_arg4]

/-- W's last 128 columns. -/
theorem V3_v5 (c : Dev nD) : (V3 m ρ c main_v5 : S128x128.Idx → EReal)
    = extractStridedSlice S128x128 ![0, 128] (m ((c : Thread nD τ).loc main_arg4)) slices_S128x256_S128x128_0_128 := by
  show StableHlo.after hostOps1 (W2 m ρ c) (Proc.devRef .tc main_v5) = _
  after_results
  rw [W2_arg4]

/-- b as a row. -/
theorem V3_v6 (c : Dev nD) : (V3 m ρ c main_v6 : S1x128.Idx → EReal)
    = shapeCast S1x128 (m ((c : Thread nD τ).loc main_arg5)) shapeCasts_S128_S1x128 := by
  show StableHlo.after hostOps1 (W2 m ρ c) (Proc.devRef .tc main_v6) = _
  after_results
  rw [W2_arg5]
  rfl

/-! ## The re-laid parameters read at an index -/

/-- Row 0 of a 256-vector re-laid as 2 × 128 is its first half. -/
theorem rows_row0 (v : S256.Idx → EReal) (h : S256.ShapeCasts S2x128) (k : Fin 128) :
    shapeCast S2x128 v h (ix2 (0 : Fin 2) k) = v (ix1 ⟨k.val, by omega⟩) :=
  shapeCast_apply v h _ _ (by
    rw [Shape.rowMajor_val_one, Shape.rowMajor_val_two]
    show k.val = 0 * 128 + k.val
    omega)

/-- Row 1 is its second half. -/
theorem rows_row1 (v : S256.Idx → EReal) (h : S256.ShapeCasts S2x128) (k : Fin 128) :
    shapeCast S2x128 v h (ix2 (1 : Fin 2) k) = v (ix1 ⟨128 + k.val, by omega⟩) :=
  shapeCast_apply v h _ _ (by
    rw [Shape.rowMajor_val_one, Shape.rowMajor_val_two]
    show 128 + k.val = 1 * 128 + k.val
    omega)

/-- The left half of W at (n, k) is W at (n, k). -/
theorem cols_left (w : S128x256.Idx → EReal) (h : S128x256.Slices ![0, 0] S128x128) (n k : Fin 128) :
    extractStridedSlice S128x128 ![0, 0] w h (ix2 n k) = w (ix2 n ⟨k.val, by omega⟩) :=
  extractStridedSlice_apply _ w h _ _ (fun a => by
    match a with
    | ⟨0, _⟩ => show n.val = 0 + n.val; omega
    | ⟨1, _⟩ => show k.val = 0 + k.val; omega)

/-- The right half of W at (n, k) is W at (n, 128 + k). -/
theorem cols_right (w : S128x256.Idx → EReal) (h : S128x256.Slices ![0, 128] S128x128) (n k : Fin 128) :
    extractStridedSlice S128x128 ![0, 128] w h (ix2 n k) = w (ix2 n ⟨128 + k.val, by omega⟩) :=
  extractStridedSlice_apply _ w h _ _ (fun a => by
    match a with
    | ⟨0, _⟩ => show n.val = 0 + n.val; omega
    | ⟨1, _⟩ => show 128 + k.val = 128 + k.val; rfl)

/-- The bias re-laid as a row, at (0, n), is the bias at n. -/
theorem row_of_vec (v : S128.Idx → EReal) (h : S128.ShapeCasts S1x128) (n : Fin 128) :
    shapeCast S1x128 v h (ix2 (0 : Fin 1) n) = v (ix1 n) :=
  shapeCast_apply v h _ _ (by
    rw [Shape.rowMajor_val_one, Shape.rowMajor_val_two]
    show n.val = 0 * 128 + n.val
    omega)

end Cert.KernelIdeal.KFold

end
-- ==== Proof.LibDense.lean ====
/-
  Two general facts about a plain matrix product at the exact instance.

  A product of an [M, K] by a [K, N] operand that contracts the first operand's columns against the
  second's rows (no batch axis) has, at the output position (r, c), the operand positions (r, k) and
  (k, c) as k runs over the K contracted positions. So its sum over the contraction's index type is the
  sum over `Fin K` of the first operand at (r, k) times the second at (k, c) — the textbook entry of the
  product. Stated for any dimension record with those four index facts, so that a kernel's matrix unit
  and a host's dot product read the same way.
-/
import Idealize.ShloMosaic.Lib.ValueIdx
import Idealize.ShloMosaic.PureOps.Ideal.Laws

noncomputable section

namespace Cert.LibDense

open Idealize.ShloMosaic Idealize.ShloMosaic.ValueIdx

/-- A row of `K` extended reals against column `j` of a [K, N] matrix. -/
def dense {K N : ℕ} (x : Fin K → EReal) (W : (⟨2, ![K, N]⟩ : Shape).Idx → EReal) (j : Fin N) : EReal :=
  ∑ k : Fin K, x k * W (ix2 k j)

/-- The sum over a one-axis contraction of extent `K`, re-indexed by `Fin K`, when the operand positions are
    (row, k) and (k, column). -/
theorem sum_contr_plain {M K N : ℕ} (d : DotDims (⟨2, ![M, K]⟩ : Shape) (⟨2, ![K, N]⟩ : Shape) (⟨2, ![M, N]⟩ : Shape))
    (hr : d.contr.rank = 1) (hs : d.contr.size ⟨0, by omega⟩ = K)
    (j : (⟨2, ![M, N]⟩ : Shape).Idx)
    (hl0 : ∀ q, (d.lhsIdx j q 0).val = (j 0).val) (hl1 : ∀ q, (d.lhsIdx j q 1).val = (q ⟨0, by omega⟩).val)
    (hr0 : ∀ q, (d.rhsIdx j q 0).val = (q ⟨0, by omega⟩).val) (hr1 : ∀ q, (d.rhsIdx j q 1).val = (j 1).val)
    (l : (⟨2, ![M, K]⟩ : Shape).Idx → EReal) (r : (⟨2, ![K, N]⟩ : Shape).Idx → EReal) :
    ∑ q : d.contr.Idx, l (d.lhsIdx j q) * r (d.rhsIdx j q) = dense (fun k => l (ix2 (j 0) k)) r (j 1) := by
  unfold dense
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ => exact hl0 _
    | ⟨1, _⟩ => exact (hl1 _).trans hk)
  have er : d.rhsIdx j ((contrEquiv1 d K hr hs).symm k) = ix2 k (j 1) := funext fun a => Fin.ext (by
    match a with
    | ⟨0, _⟩ => exact (hr0 _).trans hk
    | ⟨1, _⟩ => exact hr1 _)
  rw [el, er]
  rfl

/-- The matrix unit's product into a zero accumulator, read at (r, c): the textbook entry. -/
theorem matmul_zero_plain {M K N : ℕ} {φ₁ φ₂ : FTy}
    (d : DotDims (⟨2, ![M, K]⟩ : Shape) (⟨2, ![K, N]⟩ : Shape) (⟨2, ![M, N]⟩ : Shape)) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (l : FVec Ideal (⟨2, ![M, K]⟩ : Shape) φ₁) (r : FVec Ideal (⟨2, ![K, N]⟩ : Shape) φ₂) (a : Fin M) (b : Fin N) :
    FloatOps.matmul d prec l r (constant (⟨2, ![M, N]⟩ : Shape) .f32 0x00000000#32) (ix2 a b)
      = dense (fun k => l (ix2 a k)) r b :=
  (Ideal.matmul_constant_zero_apply d prec l r (ix2 a b)).trans
    (sum_contr_plain d hr hs (ix2 a b) (hl0 _) (hl1 _) (hr0 _) (hr1 _) l r)

end Cert.LibDense

end
-- ==== Proof.PassOnePieces.lean ====
/-
  The first pass of the kernel, one grid point at a time, at the exact instance.

  At a grid point the body multiplies a strip of 400 rows of the adjacency matrix with the whole 10000 × 128
  operand, stores the 400 × 128 product strip, and adds to rows 0–3 of an 8 × 128 block the column sums, over
  the strip's 400 rows, of x, x², the product and its square. At the first point the block is zeroed first.

  This module reads what the generated run found in the two output buffers after one point: the product strip,
  entry by entry, is the textbook sum over the 10000 contracted positions; and entry (j, k) of the block, for
  j = 0, 1, 2, 3, is what it held before the point (zero at the first point) plus the column sum of the
  corresponding strip. The block is written by four one-row stores over a whole-block store or over the earlier
  contents, so each row is read by skipping the stores to the other rows.
-/
import proofs.«116730_g22660247454026_cont_sun_m_460_4_alg».proof.Proof.Gen.KernelIdeal.Frame
import Idealize.ShloMosaic.Lib.Pipeline.Value
import Idealize.ShloMosaic.Lib.Tactic
import Idealize.ShloMosaic.Lib.ValueIdx
import Idealize.ShloMosaic.Lib.ValueLayout
import proofs.«116730_g22660247454026_cont_sun_m_460_4_alg».proof.Proof.LibDense

noncomputable section

open Idealize.ShloMosaic Idealize.ShloMosaic.TcCoe Idealize.SL.Sem
open Idealize.ShloMosaic.Pipeline (Dat)

namespace Cert.KernelIdeal.PassOne

open Cert.KernelIdeal Cert.KernelIdeal.Gen Idealize.ShloMosaic.ValueIdx

variable {F : FTy → Type} [FloatOps F] [Named F]

/-- The two zero offsets, as a constant function. -/
theorem hz : (![0, 0] : Fin 2 → Nat) = fun _ => 0 := funext fun a => by fin_cases a <;> rfl

/-! ## Reading a block of eight rows that was written row by row -/

/-- A one-row rectangle of the 8 × 128 block places its entry (0, k) at (o, k). -/
theorem row_idx (o : ℕ) (r : Fin 8) (ho : r.val = o) (inb) (k : Fin 128) :
    (Rect.unit (s := S8x128) ![o, 0] ![1, 128] inb).idx (ix2 (0 : Fin 1) k) = ix2 r k := by
  funext a
  apply Fin.ext
  match a with
  | ⟨0, _⟩ => show o + 1 * 0 = r.val; omega
  | ⟨1, _⟩ => show 0 + 1 * k.val = k.val; omega

/-- (r, k) lies in the one-row rectangle at row o exactly when r = o. -/
theorem mem_row (o : ℕ) (r : Fin 8) (inb) (k : Fin 128) :
    ix2 r k ∈ (Rect.unit (s := S8x128) ![o, 0] ![1, 128] inb).set ↔ r.val = o := by
  rw [Rect.mem_set_unit]
  constructor
  · intro h
    have h0 := h 0
    change o ≤ r.val ∧ r.val < o + 1 at h0
    omega
  · intro h a
    match a with
    | ⟨0, _⟩ => show o ≤ r.val ∧ r.val < o + 1; omega
    | ⟨1, _⟩ => show 0 ≤ k.val ∧ k.val < 0 + 128; have := k.isLt; omega

/-- The last store was to row o: at (o, k) the block holds that store's entry (0, k). -/
theorem canon_row_hit (o : ℕ) (r : Fin 8) (ho : r.val = o) (inb)
    (w : (Rect.unit (s := S8x128) ![o, 0] ![1, 128] inb).shape.Idx → Elt F .f32)
    (L : List (View.Piece (Elt F) S8x128 .f32)) (k : Fin 128) :
    View.canon (⟨Rect.unit (s := S8x128) ![o, 0] ![1, 128] inb, w⟩ :: L) (ix2 r k) = w (ix2 (0 : Fin 1) k) := by
  rw [← row_idx o r ho inb k]
  exact View.canon_cons_emb _ w L _

/-- The last store was to another row: at (r, k) the block holds what the earlier stores left. -/
theorem canon_row_miss (o : ℕ) (r : Fin 8) (ho : r.val ≠ o) (inb)
    (w : (Rect.unit (s := S8x128) ![o, 0] ![1, 128] inb).shape.Idx → Elt F .f32)
    (L : List (View.Piece (Elt F) S8x128 .f32)) (k : Fin 128) :
    View.canon (⟨Rect.unit (s := S8x128) ![o, 0] ![1, 128] inb, w⟩ :: L) (ix2 r k) = View.canon L (ix2 r k) :=
  View.canon_cons_of_not_mem _ L (fun h => ho ((mem_row o r inb k).mp h))

/-! ## The body's arithmetic at the exact instance, entry by entry -/

/-- A sum over the 400 rows of a strip, with the accumulator word zero: the plain sum of the column. -/
theorem colsum_apply (x : FVec Ideal S400x128 .f32) (h : S400x128.Reduces [0] S128) (hφ : FKind.Formats .f32)
    (hacc : (0x00000000#32 : BitVec 32) = 0x00000000#32) (k : Fin 128) :
    multiReduction (F := Ideal) .add [0] S128 x 0x00000000#32 h hφ hacc (ix1 k) = ∑ r : Fin 400, x (ix2 r k) := by
  refine (Ideal.multiReduction_add_single x 0x00000000#32 h hφ hacc (ix1 k)).trans ?_
  refine Finset.sum_congr rfl fun r _ => congrArg x ?_
  funext a
  apply Fin.ext
  match a with
  | ⟨0, _⟩ => rfl
  | ⟨1, _⟩ => rfl

/-- The strip of the product: row r of the 400 × 10000 strip against column k of the 10000 × 128 operand. -/
theorem pay3_apply (x1 : FVec Ideal S400x10000 .f32) (x0 : FVec Ideal S10000x128 .bf16) (r : Fin 400) (k : Fin 128) :
    k0_pay3 (F := Ideal) x1 x0 (ix2 r k) = ∑ q : Fin 10000, x1 (ix2 r q) * x0 (ix2 q k) := by
  unfold k0_pay3
  refine (Cert.LibDense.matmul_zero_plain dot_S400x10000_S10000x128_S400x128_1_0_0_1_n_n none rfl rfl
    (fun _ _ => rfl) (fun _ _ => rfl) (fun _ _ => rfl) (fun _ _ => rfl) _ _ r k).trans ?_
  rw [shapeCast_self]
  rfl

/-- Row 0's new entry: the old entry plus the column sum of the x strip. -/
theorem pay4_apply (x : FVec Ideal S400x128 .f32) (v : FVec Ideal S1x128 .f32) (k : Fin 128) :
    k0_pay4 (F := Ideal) x v (ix2 (0 : Fin 1) k) = v (ix2 (0 : Fin 1) k) + ∑ r : Fin 400, x (ix2 r k) := by
  unfold k0_pay4
  refine (addf_apply _ _ _).trans ?_
  rw [shapeCast_self]
  refine congrArg (v (ix2 (0 : Fin 1) k) + ·) ?_
  refine (shapeCast_a_1a_apply _ _ (0 : Fin 1) k).trans ?_
  exact colsum_apply x _ _ _ k

/-- Row 1's new entry: the old entry plus the column sum of the squared x strip. -/
theorem pay5_apply (x : FVec Ideal S400x128 .f32) (v : FVec Ideal S1x128 .f32) (k : Fin 128) :
    k0_pay5 (F := Ideal) x v (ix2 (0 : Fin 1) k) = v (ix2 (0 : Fin 1) k) + ∑ r : Fin 400, x (ix2 r k) * x (ix2 r k) := by
  unfold k0_pay5
  refine (addf_apply _ _ _).trans ?_
  rw [shapeCast_self]
  refine congrArg (v (ix2 (0 : Fin 1) k) + ·) ?_
  refine (shapeCast_a_1a_apply _ _ (0 : Fin 1) k).trans ?_
  exact colsum_apply (mulf x x) _ _ _ k

/-- Row 2's new entry: the old entry plus the column sum of the product strip. -/
theorem pay6_apply (x1 : FVec Ideal S400x10000 .f32) (x0 : FVec Ideal S10000x128 .bf16) (v : FVec Ideal S1x128 .f32) (k : Fin 128) :
    k0_pay6 (F := Ideal) x1 x0 v (ix2 (0 : Fin 1) k) = v (ix2 (0 : Fin 1) k) + ∑ r : Fin 400, k0_pay3 (F := Ideal) x1 x0 (ix2 r k) := by
  unfold k0_pay6
  refine (addf_apply _ _ _).trans ?_
  rw [shapeCast_self]
  refine congrArg (v (ix2 (0 : Fin 1) k) + ·) ?_
  refine (shapeCast_a_1a_apply _ _ (0 : Fin 1) k).trans ?_
  exact colsum_apply (k0_pay3 (F := Ideal) x1 x0) _ _ _ k

/-- Row 3's new entry: the old entry plus the column sum of the squared product strip. -/
theorem pay1_apply (o : FVec Ideal S400x128 .f32) (v : FVec Ideal S1x128 .f32) (k : Fin 128) :
    k0_pay1 (F := Ideal) o v (ix2 (0 : Fin 1) k) = v (ix2 (0 : Fin 1) k) + ∑ r : Fin 400, o (ix2 r k) * o (ix2 r k) := by
  unfold k0_pay1
  refine (addf_apply _ _ _).trans ?_
  rw [shapeCast_self]
  refine congrArg (v (ix2 (0 : Fin 1) k) + ·) ?_
  refine (shapeCast_a_1a_apply _ _ (0 : Fin 1) k).trans ?_
  exact colsum_apply (mulf o o) _ _ _ k

/-- The zero block's entries. -/
theorem pay2_apply (j : S8x128.Idx) : k0_pay2 (F := Ideal) j = 0 := Ideal.ofBits_zero_f32

/-- A block holding only the zero store reads zero everywhere. -/
theorem canon_zero (inb) (j : S8x128.Idx) :
    View.canon [(⟨Rect.unit (s := S8x128) ![0, 0] S8x128.size inb, k0_pay2 (F := Ideal)⟩ : View.Piece (Elt Ideal) S8x128 .f32)] j = 0 :=
  (congrFun (View.canon_unit_zero hz inb _) j).trans (pay2_apply j)

/-- A load of row o after the stores L reads, at (0, k), what the stores left at (o, k). -/
theorem readCov_row {sg : RefSig} {κ : Kind} {sp : Space} (v : View sg κ sp S8x128 .f32) (L : List (View.Piece (Elt Ideal) S8x128 .f32))
    (o : ℕ) (r : Fin 8) (ho : r.val = o) (inb) (k : Fin 128) :
    v.readCov L (Rect.unit (s := S8x128) ![o, 0] ![1, 128] inb).toLoadRect (ix2 (0 : Fin 1) k) = View.canon L (ix2 r k) := by
  rw [View.readCov_eq_canon']
  exact congrArg (View.canon L) (row_idx o r ho inb k)

/-- A load of row o of a whole buffer holding xo reads, at (0, k), xo at (o, k). -/
theorem readAt_row (a : Memref sig .tc .vmem S8x128 .f32) (h : a.IsWhole) (xo : Vec Ideal S8x128 .f32)
    (o : ℕ) (r : Fin 8) (ho : r.val = o) (inb) (k : Fin 128) :
    View.readAt (Elt Ideal) a.view (Rect.unit (s := S8x128) ![o, 0] ![1, 128] inb).toLoadRect (h.unread xo) (ix2 (0 : Fin 1) k) = xo (ix2 r k) := by
  rw [View.readAt_eq_ld, h.read_unread]
  exact congrArg xo (row_idx o r ho inb k)

/-- A load of a whole buffer through the whole-shape rectangle reads its contents. -/
theorem readAt_whole {S : Shape} {e : EltTy} (a : Memref sig .tc .vmem S e) (h : a.IsWhole) (x : Vec Ideal S e)
    (off : Fin S.rank → ℕ) (hoff : off = fun _ => 0) (inb) :
    View.readAt (Elt Ideal) a.view (Rect.unit off S.size inb).toLoadRect (h.unread x) = x := by
  rw [View.readAt_eq_ld, h.read_unread, View.ld_unit_zero hoff]

/-- Over any earlier contents: the last store was to row o, so (o, k) holds that store's entry (0, k). -/
theorem read_row_hit {sg : RefSig} {κ : Kind} {sp : Space} (v : View sg κ sp S8x128 .f32) (f : v.ty.Contents (Elt Ideal))
    (o : ℕ) (r : Fin 8) (ho : r.val = o) (inb)
    (w : (Rect.unit (s := S8x128) ![o, 0] ![1, 128] inb).shape.Idx → Elt Ideal .f32)
    (L : List (View.Piece (Elt Ideal) S8x128 .f32)) (k : Fin 128) :
    v.read (Elt Ideal) (v.writes (Elt Ideal) f (⟨Rect.unit (s := S8x128) ![o, 0] ![1, 128] inb, w⟩ :: L)) (ix2 r k)
      = w (ix2 (0 : Fin 1) k) := by
  rw [← row_idx o r ho inb k]
  exact View.read_writes_cons_emb v f _ w L _

/-- Over any earlier contents: the last store was to another row, so (r, k) holds what was there before it. -/
theorem read_row_miss {sg : RefSig} {κ : Kind} {sp : Space} (v : View sg κ sp S8x128 .f32) (f : v.ty.Contents (Elt Ideal))
    (o : ℕ) (r : Fin 8) (ho : r.val ≠ o) (inb)
    (w : (Rect.unit (s := S8x128) ![o, 0] ![1, 128] inb).shape.Idx → Elt Ideal .f32)
    (L : List (View.Piece (Elt Ideal) S8x128 .f32)) (k : Fin 128) :
    v.read (Elt Ideal) (v.writes (Elt Ideal) f (⟨Rect.unit (s := S8x128) ![o, 0] ![1, 128] inb, w⟩ :: L)) (ix2 r k)
      = v.read (Elt Ideal) (v.writes (Elt Ideal) f L) (ix2 r k) := by
  rw [View.writes_cons]
  refine View.read_slice_write_of_not_mem _ _ _ _ ?_
  rw [Rect.map_emb_univ]
  exact fun h => ho ((mem_row o r inb k).mp h)

/-! ## What the first point leaves: the strip of the product, and the four sums started from zero -/

theorem out_A_3 (c : Dev nD) (i : grid0.Coords) (a1 : Memref sig .tc .vmem S10000x128 .bf16) (h1 : a1.IsWhole)
    (a2 : Memref sig .tc .vmem S400x10000 .f32) (h2 : a2.IsWhole) (a3 : Memref sig .tc .vmem S400x128 .f32) (h3 : a3.IsWhole)
    (a4 : Memref sig .tc .vmem S400x128 .f32) (h4 : a4.IsWhole) (a5 : Memref sig .tc .vmem S8x128 .f32) (h5 : a5.IsWhole)
    (hc : cond0_0 i) (x0 : Vec Ideal S10000x128 .bf16) (x1 : Vec Ideal S400x10000 .f32) (x2 : Vec Ideal S400x128 .f32) :
    out0_A_3 (F := Ideal) c i a1 h1 a2 h2 a3 h3 a4 h4 a5 h5 hc x0 x1 x2 = k0_pay3 (F := Ideal) x1 x0 := by
  unfold out0_A_3
  rw [View.read_writes_eq_canon _ _ _ (cover0_A_3 c i a1 h1 a2 h2 a3 h3 a4 h4 a5 h5 hc x0 x1 x2)]
  unfold kernelRun0_A
  dsimp only
  rw [View.canon_unit_zero hz]
  exact congrArg₂ (k0_pay3 (F := Ideal)) (readAt_whole a2 h2 x1 _ hz _) (readAt_whole a1 h1 x0 _ hz _)

theorem out_A_4_r0 (c : Dev nD) (i : grid0.Coords) (a1 : Memref sig .tc .vmem S10000x128 .bf16) (h1 : a1.IsWhole)
    (a2 : Memref sig .tc .vmem S400x10000 .f32) (h2 : a2.IsWhole) (a3 : Memref sig .tc .vmem S400x128 .f32) (h3 : a3.IsWhole)
    (a4 : Memref sig .tc .vmem S400x128 .f32) (h4 : a4.IsWhole) (a5 : Memref sig .tc .vmem S8x128 .f32) (h5 : a5.IsWhole)
    (hc : cond0_0 i) (x0 : Vec Ideal S10000x128 .bf16) (x1 : Vec Ideal S400x10000 .f32) (x2 : Vec Ideal S400x128 .f32) (k : Fin 128) :
    out0_A_4 (F := Ideal) c i a1 h1 a2 h2 a3 h3 a4 h4 a5 h5 hc x0 x1 x2 (ix2 (0 : Fin 8) k) = 0 + ∑ r : Fin 400, x2 (ix2 r k) := by
  unfold out0_A_4
  rw [View.read_writes_eq_canon _ _ _ (cover0_A_4 c i a1 h1 a2 h2 a3 h3 a4 h4 a5 h5 hc x0 x1 x2)]
  unfold kernelRun0_A
  dsimp only
  sl_unfold_words
  refine (canon_row_miss 3 0 (by decide) _ _ _ k).trans ?_
  refine (canon_row_miss 2 0 (by decide) _ _ _ k).trans ?_
  refine (canon_row_miss 1 0 (by decide) _ _ _ k).trans ?_
  refine (canon_row_hit 0 0 rfl _ _ _ k).trans ?_
  refine (pay4_apply _ _ k).trans ?_
  refine congrArg₂ (· + ·) ?_ ?_
  · refine (readCov_row _ _ 0 0 rfl _ k).trans ?_
    exact canon_zero _ _
  · exact congrArg (fun x : FVec Ideal S400x128 .f32 => ∑ r : Fin 400, x (ix2 r k)) (readAt_whole a3 h3 x2 _ hz _)

theorem out_A_4_r1 (c : Dev nD) (i : grid0.Coords) (a1 : Memref sig .tc .vmem S10000x128 .bf16) (h1 : a1.IsWhole)
    (a2 : Memref sig .tc .vmem S400x10000 .f32) (h2 : a2.IsWhole) (a3 : Memref sig .tc .vmem S400x128 .f32) (h3 : a3.IsWhole)
    (a4 : Memref sig .tc .vmem S400x128 .f32) (h4 : a4.IsWhole) (a5 : Memref sig .tc .vmem S8x128 .f32) (h5 : a5.IsWhole)
    (hc : cond0_0 i) (x0 : Vec Ideal S10000x128 .bf16) (x1 : Vec Ideal S400x10000 .f32) (x2 : Vec Ideal S400x128 .f32) (k : Fin 128) :
    out0_A_4 (F := Ideal) c i a1 h1 a2 h2 a3 h3 a4 h4 a5 h5 hc x0 x1 x2 (ix2 (1 : Fin 8) k) = 0 + ∑ r : Fin 400, x2 (ix2 r k) * x2 (ix2 r k) := by
  unfold out0_A_4
  rw [View.read_writes_eq_canon _ _ _ (cover0_A_4 c i a1 h1 a2 h2 a3 h3 a4 h4 a5 h5 hc x0 x1 x2)]
  unfold kernelRun0_A
  dsimp only
  sl_unfold_words
  refine (canon_row_miss 3 1 (by decide) _ _ _ k).trans ?_
  refine (canon_row_miss 2 1 (by decide) _ _ _ k).trans ?_
  refine (canon_row_hit 1 1 rfl _ _ _ k).trans ?_
  refine (pay5_apply _ _ k).trans ?_
  refine congrArg₂ (· + ·) ?_ ?_
  · refine (readCov_row _ _ 1 1 rfl _ k).trans ?_
    refine (canon_row_miss 0 1 (by decide) _ _ _ k).trans ?_
    exact canon_zero _ _
  · exact congrArg (fun x : FVec Ideal S400x128 .f32 => ∑ r : Fin 400, x (ix2 r k) * x (ix2 r k)) (readAt_whole a3 h3 x2 _ hz _)

theorem out_A_4_r2 (c : Dev nD) (i : grid0.Coords) (a1 : Memref sig .tc .vmem S10000x128 .bf16) (h1 : a1.IsWhole)
    (a2 : Memref sig .tc .vmem S400x10000 .f32) (h2 : a2.IsWhole) (a3 : Memref sig .tc .vmem S400x128 .f32) (h3 : a3.IsWhole)
    (a4 : Memref sig .tc .vmem S400x128 .f32) (h4 : a4.IsWhole) (a5 : Memref sig .tc .vmem S8x128 .f32) (h5 : a5.IsWhole)
    (hc : cond0_0 i) (x0 : Vec Ideal S10000x128 .bf16) (x1 : Vec Ideal S400x10000 .f32) (x2 : Vec Ideal S400x128 .f32) (k : Fin 128) :
    out0_A_4 (F := Ideal) c i a1 h1 a2 h2 a3 h3 a4 h4 a5 h5 hc x0 x1 x2 (ix2 (2 : Fin 8) k) = 0 + ∑ r : Fin 400, k0_pay3 (F := Ideal) x1 x0 (ix2 r k) := by
  unfold out0_A_4
  rw [View.read_writes_eq_canon _ _ _ (cover0_A_4 c i a1 h1 a2 h2 a3 h3 a4 h4 a5 h5 hc x0 x1 x2)]
  unfold kernelRun0_A
  dsimp only
  sl_unfold_words
  refine (canon_row_miss 3 2 (by decide) _ _ _ k).trans ?_
  refine (canon_row_hit 2 2 rfl _ _ _ k).trans ?_
  refine (pay6_apply _ _ _ k).trans ?_
  refine congrArg₂ (· + ·) ?_ ?_
  · refine (readCov_row _ _ 2 2 rfl _ k).trans ?_
    refine (canon_row_miss 1 2 (by decide) _ _ _ k).trans ?_
    refine (canon_row_miss 0 2 (by decide) _ _ _ k).trans ?_
    exact canon_zero _ _
  · exact congrArg (fun o : FVec Ideal S400x128 .f32 => ∑ r : Fin 400, o (ix2 r k)) (congrArg₂ (k0_pay3 (F := Ideal)) (readAt_whole a2 h2 x1 _ hz _) (readAt_whole a1 h1 x0 _ hz _))

theorem out_A_4_r3 (c : Dev nD) (i : grid0.Coords) (a1 : Memref sig .tc .vmem S10000x128 .bf16) (h1 : a1.IsWhole)
    (a2 : Memref sig .tc .vmem S400x10000 .f32) (h2 : a2.IsWhole) (a3 : Memref sig .tc .vmem S400x128 .f32) (h3 : a3.IsWhole)
    (a4 : Memref sig .tc .vmem S400x128 .f32) (h4 : a4.IsWhole) (a5 : Memref sig .tc .vmem S8x128 .f32) (h5 : a5.IsWhole)
    (hc : cond0_0 i) (x0 : Vec Ideal S10000x128 .bf16) (x1 : Vec Ideal S400x10000 .f32) (x2 : Vec Ideal S400x128 .f32) (k : Fin 128) :
    out0_A_4 (F := Ideal) c i a1 h1 a2 h2 a3 h3 a4 h4 a5 h5 hc x0 x1 x2 (ix2 (3 : Fin 8) k) = 0 + ∑ r : Fin 400, k0_pay3 (F := Ideal) x1 x0 (ix2 r k) * k0_pay3 (F := Ideal) x1 x0 (ix2 r k) := by
  unfold out0_A_4
  rw [View.read_writes_eq_canon _ _ _ (cover0_A_4 c i a1 h1 a2 h2 a3 h3 a4 h4 a5 h5 hc x0 x1 x2)]
  unfold kernelRun0_A
  dsimp only
  sl_unfold_words
  refine (canon_row_hit 3 3 rfl _ _ _ k).trans ?_
  refine (pay1_apply _ _ k).trans ?_
  refine congrArg₂ (· + ·) ?_ ?_
  · refine (readCov_row _ _ 3 3 rfl _ k).trans ?_
    refine (canon_row_miss 2 3 (by decide) _ _ _ k).trans ?_
    refine (canon_row_miss 1 3 (by decide) _ _ _ k).trans ?_
    refine (canon_row_miss 0 3 (by decide) _ _ _ k).trans ?_
    exact canon_zero _ _
  · exact congrArg (fun o : FVec Ideal S400x128 .f32 => ∑ r : Fin 400, o (ix2 r k) * o (ix2 r k)) (congrArg₂ (k0_pay3 (F := Ideal)) (readAt_whole a2 h2 x1 _ hz _) (readAt_whole a1 h1 x0 _ hz _))

/-! ## What a later point leaves: the strip of the product, and the four sums continued -/

theorem out_B_3 (c : Dev nD) (i : grid0.Coords) (a1 : Memref sig .tc .vmem S10000x128 .bf16) (h1 : a1.IsWhole)
    (a2 : Memref sig .tc .vmem S400x10000 .f32) (h2 : a2.IsWhole) (a3 : Memref sig .tc .vmem S400x128 .f32) (h3 : a3.IsWhole)
    (a4 : Memref sig .tc .vmem S400x128 .f32) (h4 : a4.IsWhole) (a5 : Memref sig .tc .vmem S8x128 .f32) (h5 : a5.IsWhole)
    (hc : ¬cond0_0 i) (x0 : Vec Ideal S10000x128 .bf16) (x1 : Vec Ideal S400x10000 .f32) (x2 : Vec Ideal S400x128 .f32) (xo : Vec Ideal S8x128 .f32) :
    out0_B_3 (F := Ideal) c i a1 h1 a2 h2 a3 h3 a4 h4 a5 h5 hc x0 x1 x2 xo = k0_pay3 (F := Ideal) x1 x0 := by
  unfold out0_B_3
  rw [View.read_writes_eq_canon _ _ _ (cover0_B_3 c i a1 h1 a2 h2 a3 h3 a4 h4 a5 h5 hc x0 x1 x2 xo)]
  unfold kernelRun0_B
  dsimp only
  rw [View.canon_unit_zero hz]
  exact congrArg₂ (k0_pay3 (F := Ideal)) (readAt_whole a2 h2 x1 _ hz _) (readAt_whole a1 h1 x0 _ hz _)

theorem out_B_4_r0 (c : Dev nD) (i : grid0.Coords) (a1 : Memref sig .tc .vmem S10000x128 .bf16) (h1 : a1.IsWhole)
    (a2 : Memref sig .tc .vmem S400x10000 .f32) (h2 : a2.IsWhole) (a3 : Memref sig .tc .vmem S400x128 .f32) (h3 : a3.IsWhole)
    (a4 : Memref sig .tc .vmem S400x128 .f32) (h4 : a4.IsWhole) (a5 : Memref sig .tc .vmem S8x128 .f32) (h5 : a5.IsWhole)
    (hc : ¬cond0_0 i) (x0 : Vec Ideal S10000x128 .bf16) (x1 : Vec Ideal S400x10000 .f32) (x2 : Vec Ideal S400x128 .f32) (xo : Vec Ideal S8x128 .f32) (k : Fin 128) :
    out0_B_4 (F := Ideal) c i a1 h1 a2 h2 a3 h3 a4 h4 a5 h5 hc x0 x1 x2 xo (ix2 (0 : Fin 8) k) = xo (ix2 (0 : Fin 8) k) + ∑ r : Fin 400, x2 (ix2 r k) := by
  unfold out0_B_4
  unfold kernelRun0_B
  dsimp only
  sl_unfold_words
  refine (read_row_miss _ _ 3 0 (by decide) _ _ _ k).trans ?_
  refine (read_row_miss _ _ 2 0 (by decide) _ _ _ k).trans ?_
  refine (read_row_miss _ _ 1 0 (by decide) _ _ _ k).trans ?_
  refine (read_row_hit _ _ 0 0 rfl _ _ _ k).trans ?_
  refine (pay4_apply _ _ k).trans ?_
  refine congrArg₂ (· + ·) ?_ ?_
  · exact readAt_row a5 h5 xo 0 0 rfl _ k
  · exact congrArg (fun x : FVec Ideal S400x128 .f32 => ∑ r : Fin 400, x (ix2 r k)) (readAt_whole a3 h3 x2 _ hz _)

theorem out_B_4_r1 (c : Dev nD) (i : grid0.Coords) (a1 : Memref sig .tc .vmem S10000x128 .bf16) (h1 : a1.IsWhole)
    (a2 : Memref sig .tc .vmem S400x10000 .f32) (h2 : a2.IsWhole) (a3 : Memref sig .tc .vmem S400x128 .f32) (h3 : a3.IsWhole)
    (a4 : Memref sig .tc .vmem S400x128 .f32) (h4 : a4.IsWhole) (a5 : Memref sig .tc .vmem S8x128 .f32) (h5 : a5.IsWhole)
    (hc : ¬cond0_0 i) (x0 : Vec Ideal S10000x128 .bf16) (x1 : Vec Ideal S400x10000 .f32) (x2 : Vec Ideal S400x128 .f32) (xo : Vec Ideal S8x128 .f32) (k : Fin 128) :
    out0_B_4 (F := Ideal) c i a1 h1 a2 h2 a3 h3 a4 h4 a5 h5 hc x0 x1 x2 xo (ix2 (1 : Fin 8) k) = xo (ix2 (1 : Fin 8) k) + ∑ r : Fin 400, x2 (ix2 r k) * x2 (ix2 r k) := by
  unfold out0_B_4
  unfold kernelRun0_B
  dsimp only
  sl_unfold_words
  refine (read_row_miss _ _ 3 1 (by decide) _ _ _ k).trans ?_
  refine (read_row_miss _ _ 2 1 (by decide) _ _ _ k).trans ?_
  refine (read_row_hit _ _ 1 1 rfl _ _ _ k).trans ?_
  refine (pay5_apply _ _ k).trans ?_
  refine congrArg₂ (· + ·) ?_ ?_
  · exact readAt_row a5 h5 xo 1 1 rfl _ k
  · exact congrArg (fun x : FVec Ideal S400x128 .f32 => ∑ r : Fin 400, x (ix2 r k) * x (ix2 r k)) (readAt_whole a3 h3 x2 _ hz _)

theorem out_B_4_r2 (c : Dev nD) (i : grid0.Coords) (a1 : Memref sig .tc .vmem S10000x128 .bf16) (h1 : a1.IsWhole)
    (a2 : Memref sig .tc .vmem S400x10000 .f32) (h2 : a2.IsWhole) (a3 : Memref sig .tc .vmem S400x128 .f32) (h3 : a3.IsWhole)
    (a4 : Memref sig .tc .vmem S400x128 .f32) (h4 : a4.IsWhole) (a5 : Memref sig .tc .vmem S8x128 .f32) (h5 : a5.IsWhole)
    (hc : ¬cond0_0 i) (x0 : Vec Ideal S10000x128 .bf16) (x1 : Vec Ideal S400x10000 .f32) (x2 : Vec Ideal S400x128 .f32) (xo : Vec Ideal S8x128 .f32) (k : Fin 128) :
    out0_B_4 (F := Ideal) c i a1 h1 a2 h2 a3 h3 a4 h4 a5 h5 hc x0 x1 x2 xo (ix2 (2 : Fin 8) k) = xo (ix2 (2 : Fin 8) k) + ∑ r : Fin 400, k0_pay3 (F := Ideal) x1 x0 (ix2 r k) := by
  unfold out0_B_4
  unfold kernelRun0_B
  dsimp only
  sl_unfold_words
  refine (read_row_miss _ _ 3 2 (by decide) _ _ _ k).trans ?_
  refine (read_row_hit _ _ 2 2 rfl _ _ _ k).trans ?_
  refine (pay6_apply _ _ _ k).trans ?_
  refine congrArg₂ (· + ·) ?_ ?_
  · exact readAt_row a5 h5 xo 2 2 rfl _ k
  · exact congrArg (fun o : FVec Ideal S400x128 .f32 => ∑ r : Fin 400, o (ix2 r k)) (congrArg₂ (k0_pay3 (F := Ideal)) (readAt_whole a2 h2 x1 _ hz _) (readAt_whole a1 h1 x0 _ hz _))

theorem out_B_4_r3 (c : Dev nD) (i : grid0.Coords) (a1 : Memref sig .tc .vmem S10000x128 .bf16) (h1 : a1.IsWhole)
    (a2 : Memref sig .tc .vmem S400x10000 .f32) (h2 : a2.IsWhole) (a3 : Memref sig .tc .vmem S400x128 .f32) (h3 : a3.IsWhole)
    (a4 : Memref sig .tc .vmem S400x128 .f32) (h4 : a4.IsWhole) (a5 : Memref sig .tc .vmem S8x128 .f32) (h5 : a5.IsWhole)
    (hc : ¬cond0_0 i) (x0 : Vec Ideal S10000x128 .bf16) (x1 : Vec Ideal S400x10000 .f32) (x2 : Vec Ideal S400x128 .f32) (xo : Vec Ideal S8x128 .f32) (k : Fin 128) :
    out0_B_4 (F := Ideal) c i a1 h1 a2 h2 a3 h3 a4 h4 a5 h5 hc x0 x1 x2 xo (ix2 (3 : Fin 8) k) = xo (ix2 (3 : Fin 8) k) + ∑ r : Fin 400, k0_pay3 (F := Ideal) x1 x0 (ix2 r k) * k0_pay3 (F := Ideal) x1 x0 (ix2 r k) := by
  unfold out0_B_4
  unfold kernelRun0_B
  dsimp only
  sl_unfold_words
  refine (read_row_hit _ _ 3 3 rfl _ _ _ k).trans ?_
  refine (pay1_apply _ _ k).trans ?_
  refine congrArg₂ (· + ·) ?_ ?_
  · exact readAt_row a5 h5 xo 3 3 rfl _ k
  · exact congrArg (fun o : FVec Ideal S400x128 .f32 => ∑ r : Fin 400, o (ix2 r k) * o (ix2 r k)) (congrArg₂ (k0_pay3 (F := Ideal)) (readAt_whole a2 h2 x1 _ hz _) (readAt_whole a1 h1 x0 _ hz _))

end Cert.KernelIdeal.PassOne

end
-- ==== Proof.PassOneFlush.lean ====
/-
  The first pass's block of column sums, after the region: the 8 × 128 array is what the staging buffer holds after the last
  grid point.

  The block is carried in its staging buffer from point to point and written back once, at the last of the 25 points. Its
  block index is (0, 0) at every point and its size is the array's, so that one write-back covers the whole array and what
  it writes, read through the block, is the buffer's contents.
-/
import proofs.«116730_g22660247454026_cont_sun_m_460_4_alg».proof.Proof.Gen.KernelIdeal.Frame
import Idealize.ShloMosaic.Lib.Pipeline.Value

noncomputable section

namespace Cert.KernelIdeal.PassOneFlush

open Cert.KernelIdeal Cert.KernelIdeal.Gen Idealize.ShloMosaic Idealize.ShloMosaic.TcCoe
open Idealize.ShloMosaic.Pipeline (Dat)

variable {F : FTy → Type} [FloatOps F] [Named F]
variable (V : (c : Dev nD) → (b : Ref sig .tc) → Buf (Elt F) ((c : Thread nD τ).loc b))

/-- The last of the 25 grid points. -/
def tLast : Fin cfg0.N := ⟨24, by rw [show cfg0.N = 25 from N_0]; decide⟩

/-- What the block's staging buffer holds after the last point, as contents of the 8 × 128 array. -/
abbrev sums (c : Dev nD) : Buf (Elt F) ((c : Thread nD τ).loc main_v1_1) :=
  (outsAt0 V c 24 (by rw [show cfg0.N = 25 from N_0]; decide)).2

/-- The block's index is (0, 0) at every point (decided over the grid). -/
theorem idx_zero : ∀ t : Fin cfg0.N, win0_4.index t (0 : Fin 2) = 0 ∧ win0_4.index t (1 : Fin 2) = 0 :=
  (by decide +kernel : ∀ t : Fin grid0.N, _)

/-- The one write-back, at the last point, writes the buffer's contents: block (0, 0) of the 8 × 128 array read through
    zero offsets is the array. -/
theorem flushed_eq (c : Dev nD) (t : Fin cfg0.N) (hf : (cfg0.win 4).flush t = true) :
    (dat0 V c).flushed 4 t = ((cfg0.win 4).blk t).view.read (Elt F) (sums V c) := by
  have hN : cfg0.N = 25 := N_0
  have h24 : t.val = 24 := by have := (flush0_4 t).mp hf; have := t.isLt; omega
  obtain rfl : t = tLast := Fin.ext h24
  show (cfg0.win 4).cut (grid0.coords tLast) ((dat0 V c).after 4 tLast) = _
  rw [after0_4]
  obtain ⟨e0, e1⟩ := idx_zero tLast
  have hz' : (fun a => win0_4.index tLast a * main_v1_1.ty.shape.size a) = fun _ => 0 := funext fun a => by
    match a with
    | ⟨0, _⟩ => show win0_4.index tLast (0 : Fin 2) * 8 = 0; rw [e0]
    | ⟨1, _⟩ => show win0_4.index tLast (1 : Fin 2) * 128 = 0; rw [e1]
  exact (Memref.read_access_unit_zero (Elt F) main_v1_1 hz' (fun a => by rw [congrFun hz' a]; simp) (sums V c)).symm

/-- So the array of column sums ends holding what the staging buffer holds after the last point. -/
theorem arr4_eq (c : Dev nD) :
    (dat0 V c).arrAt 4 cfg0.N = (outsAt0 V c 24 (by rw [show cfg0.N = 25 from N_0]; decide)).2 :=
  (dat0 V c).arrAt_eq_of_cover 4 (sums V c) (flushed_eq V c) fun i =>
    ⟨tLast, (flush0_4 tLast).mpr rfl, by
      show i ∈ ((View.whole main_v1_1).slice (win0_4.rect tLast)).set
      rw [View.set_slice_whole, Rect.mem_set_unit]
      intro a
      have h0 : (i 0 : Nat) < 8 := (i 0).isLt
      have h1 : (i 1 : Nat) < 128 := (i 1).isLt
      obtain ⟨e0, e1⟩ := idx_zero tLast
      match a with
      | ⟨0, _⟩ =>
        show win0_4.index tLast (0 : Fin 2) * 8 ≤ (i 0 : Nat) ∧ (i 0 : Nat) < win0_4.index tLast (0 : Fin 2) * 8 + 8
        rw [e0]; omega
      | ⟨1, _⟩ =>
        show win0_4.index tLast (1 : Fin 2) * 128 ≤ (i 1 : Nat) ∧ (i 1 : Nat) < win0_4.index tLast (1 : Fin 2) * 128 + 128
        rw [e1]; omega⟩

end Cert.KernelIdeal.PassOneFlush

end
-- ==== Proof.LibStrips.lean ====
/-
  Two general facts about sums, for a reduction computed strip by strip.

  A sum over 10000 rows is the sum, over the 25 strips of 400 rows, of each strip's sum: row 400·t + r is row r of
  strip t. And an accumulation that starts from zero and adds one term per step is, after step n, the sum of the terms
  of steps 0 to n.
-/
import Mathlib.Algebra.BigOperators.Fin
import Mathlib.Logic.Equiv.Fin.Basic
import Idealize.ShloMosaic.PureOps.Ideal

noncomputable section

namespace Cert.LibStrips

open scoped BigOperators

/-- The rows by strips: 10000 = 25 · 400. -/
theorem sum_strips (f : Fin 10000 → EReal) :
    ∑ i : Fin 10000, f i
      = ∑ t : Fin 25, ∑ r : Fin 400, f ⟨400 * t.val + r.val, by have := t.isLt; have := r.isLt; omega⟩ := by
  have e1 : ∑ i : Fin 10000, f i = ∑ p : Fin 25 × Fin 400, f (finProdFinEquiv p) :=
    (Equiv.sum_comp (finProdFinEquiv (m := 25) (n := 400)) f).symm
  rw [e1, Fintype.sum_prod_type]
  refine Finset.sum_congr rfl fun t _ => Finset.sum_congr rfl fun r _ => congrArg f (Fin.ext ?_)
  show r.val + 400 * t.val = 400 * t.val + r.val
  omega

/-- An accumulation from zero: one term per step. -/
def chain (p : ℕ → EReal) : ℕ → EReal
  | 0 => 0 + p 0
  | n + 1 => chain p n + p (n + 1)

/-- After step n the accumulation is the sum of the terms of steps 0 to n. -/
theorem chain_eq (p : ℕ → EReal) (n : ℕ) : chain p n = ∑ t ∈ Finset.range (n + 1), p t := by
  induction n with
  | zero => rw [chain, zero_add, Finset.sum_range_one]
  | succ n ih => rw [chain, ih, Finset.sum_range_succ _ (n + 1)]

/-- After the last of 25 steps: the sum over the 25 steps. -/
theorem chain_24 (p : ℕ → EReal) : chain p 24 = ∑ t : Fin 25, p t.val :=
  (chain_eq p 24).trans (Finset.sum_range _)

end Cert.LibStrips

end
-- ==== Proof.Spec.lean ====
/-
  The two programs' results as functions of the six argument arrays, index by index, over the extended reals.

  The layer is a graph aggregation followed by a batch normalisation and a linear map:
    a = adj · x                                   (10000 × 10000 times 10000 × 128)
    z = [x | a]                                   (the 256 columns: x's 128, then a's 128)
    μ, σ² = the mean and the (biased) variance of each of z's columns over the 10000 rows
    out = ((z − μ) / √(σ² + ε) · γ + β) · Wᵀ + b

  The kernel computes it in two passes. The first leaves `a` and, in the first four rows of an 8 × 128 block, the
  column sums of x, x², a, a². The second reads μ = s/N and σ² = q/N − μ² off those sums (N⁻¹ the exact 1/10000),
  scales by γ·(σ² + ε)^(−1/2), and multiplies each half of z's columns with its half of W. The reference takes the
  mean by a quotient by 10000, the variance as the mean of the squared deviations, and one product with Wᵀ over
  all 256 columns. `kout` and `rout` below are those two readings; Algebra.lean proves them equal on finite inputs.
-/
import Idealize.ShloMosaic.PureOps.Ideal.Laws
import Idealize.ShloMosaic.Lib.ValueIdx

noncomputable section

namespace Cert.Spec

open Idealize.ShloMosaic Idealize.ShloMosaic.ValueIdx

/-- x and the result: 10000 rows of 128 features. -/
abbrev SX : Shape := ⟨2, ![10000, 128]⟩
/-- The adjacency matrix. -/
abbrev SA : Shape := ⟨2, ![10000, 10000]⟩
/-- γ and β: one entry per column of z. -/
abbrev SV : Shape := ⟨1, ![256]⟩
/-- W: 128 outputs by 256 columns of z. -/
abbrev SW : Shape := ⟨2, ![128, 256]⟩
/-- The bias. -/
abbrev SB : Shape := ⟨1, ![128]⟩
/-- The block of column sums: rows 0–3 are the sums of x, x², a, a². -/
abbrev SS : Shape := ⟨2, ![8, 128]⟩
/-- γ (or β) re-laid as two rows: row 0 for x's columns, row 1 for a's. -/
abbrev SG : Shape := ⟨2, ![2, 128]⟩
/-- One half of W's columns. -/
abbrev SH : Shape := ⟨2, ![128, 128]⟩
/-- The bias as a row. -/
abbrev SR : Shape := ⟨2, ![1, 128]⟩

/-- ε of the normalisation: the f32 word both programs carry. -/
def eps : EReal := Ideal.ofBits .f32 0x3727C5AC#32
/-- The number of rows as the reference writes it: the f32 word of 10000. -/
def nRows : EReal := Ideal.ofBits .f32 0x461C4000#32
/-- The exact reciprocal the kernel's named constant denotes. -/
def invN : EReal := ((1 / 10000 : ℝ) : EReal)

/-- The aggregation a = adj · x at row i, feature k. -/
def agg (adj : SA.Idx → EReal) (x : SX.Idx → EReal) (i : Fin 10000) (k : Fin 128) : EReal :=
  ∑ q : Fin 10000, adj (ix2 i q) * x (ix2 q k)

/-- The four column sums the first pass accumulates. -/
def colSum (x : SX.Idx → EReal) (k : Fin 128) : EReal := ∑ i : Fin 10000, x (ix2 i k)
def colSumSq (x : SX.Idx → EReal) (k : Fin 128) : EReal := ∑ i : Fin 10000, x (ix2 i k) * x (ix2 i k)
def aggSum (adj : SA.Idx → EReal) (x : SX.Idx → EReal) (k : Fin 128) : EReal := ∑ i : Fin 10000, agg adj x i k
def aggSumSq (adj : SA.Idx → EReal) (x : SX.Idx → EReal) (k : Fin 128) : EReal :=
  ∑ i : Fin 10000, agg adj x i k * agg adj x i k

/-! ## The kernel's second pass, from a block of column sums -/

/-- The mean of a column from row `r` of the sums. -/
def kmean (st : SS.Idx → EReal) (r : Fin 8) (k : Fin 128) : EReal := st (ix2 r k) * invN
/-- The variance of a column as the mean of squares (row `r1`) less the squared mean (row `r0`). -/
def kvar (st : SS.Idx → EReal) (r0 r1 : Fin 8) (k : Fin 128) : EReal :=
  st (ix2 r1 k) * invN - kmean st r0 k * kmean st r0 k
/-- γ over the standard deviation. -/
def kscale (st : SS.Idx → EReal) (g2 : SG.Idx → EReal) (h : Fin 2) (r0 r1 : Fin 8) (k : Fin 128) : EReal :=
  g2 (ix2 h k) * Ideal.rsqrt (kvar st r0 r1 k + eps)
/-- The normalised x-half. -/
def kh1 (st : SS.Idx → EReal) (g2 b2 : SG.Idx → EReal) (x : SX.Idx → EReal) (i : Fin 10000) (k : Fin 128) : EReal :=
  (x (ix2 i k) - kmean st 0 k) * kscale st g2 0 0 1 k + b2 (ix2 0 k)
/-- The normalised a-half. -/
def kh2 (st : SS.Idx → EReal) (g2 b2 : SG.Idx → EReal) (a : SX.Idx → EReal) (i : Fin 10000) (k : Fin 128) : EReal :=
  (a (ix2 i k) - kmean st 2 k) * kscale st g2 1 2 3 k + b2 (ix2 1 k)
/-- The second pass's result at row i, output n: each half against its half of W, then the bias. -/
def kout (st : SS.Idx → EReal) (g2 b2 : SG.Idx → EReal) (w1 w2 : SH.Idx → EReal) (br : SR.Idx → EReal)
    (x a : SX.Idx → EReal) (i : Fin 10000) (n : Fin 128) : EReal :=
  (∑ k : Fin 128, kh1 st g2 b2 x i k * w1 (ix2 n k) + ∑ k : Fin 128, kh2 st g2 b2 a i k * w2 (ix2 n k))
    + br (ix2 0 n)

/-! ## The reference -/

/-- z = [x | a] at row i, column k'. -/
def xcat (x : SX.Idx → EReal) (a : Fin 10000 → Fin 128 → EReal) (i : Fin 10000) (k' : Fin 256) : EReal :=
  if h : k'.val < 128 then x (ix2 i ⟨k'.val, h⟩) else a i ⟨k'.val - 128, by have := k'.isLt; omega⟩
/-- A column's mean: its sum over the rows, divided by the row count. -/
def rmean (z : Fin 10000 → Fin 256 → EReal) (k' : Fin 256) : EReal :=
  Ideal.div (∑ i : Fin 10000, z i k') nRows
/-- A column's variance: the mean of the squared deviations. -/
def rvar (z : Fin 10000 → Fin 256 → EReal) (k' : Fin 256) : EReal :=
  Ideal.div (∑ i : Fin 10000, (z i k' - rmean z k') * (z i k' - rmean z k')) nRows
/-- The normalised entry. -/
def rxn (z : Fin 10000 → Fin 256 → EReal) (g be : SV.Idx → EReal) (i : Fin 10000) (k' : Fin 256) : EReal :=
  Ideal.div (z i k' - rmean z k') (Ideal.sqrt (rvar z k' + eps)) * g (ix1 k') + be (ix1 k')
/-- The reference's result at row i, output n. -/
def rout (x : SX.Idx → EReal) (adj : SA.Idx → EReal) (g be : SV.Idx → EReal) (W : SW.Idx → EReal)
    (b : SB.Idx → EReal) (i : Fin 10000) (n : Fin 128) : EReal :=
  (∑ k' : Fin 256, rxn (xcat x (agg adj x)) g be i k' * W (ix2 n k')) + b (ix1 n)

/-! ## The three words -/

/-- The zero word is 0. -/
theorem zero_word : Ideal.ofBits .f32 0x00000000#32 = 0 := by simp [Ideal.ofBits, Ideal.ieee]

/-- The word of 10000 is 10000. -/
theorem nRows_eq : nRows = ((10000 : ℝ) : EReal) := by
  unfold nRows
  simp [Ideal.ofBits, Ideal.ieee, -EReal.coe_mul]; norm_num

/-- ε is a positive real. -/
theorem eps_pos : ∃ e : ℝ, 0 < e ∧ eps = (e : EReal) := by
  have h : eps = (((2 ^ 23 + 2606508 : ℕ) : ℝ) * (2 : ℝ) ^ ((110 : ℤ) - 127 - 23) : ℝ) := by
    unfold eps
    simp [Ideal.ofBits, Ideal.ieee, -EReal.coe_mul]
  exact ⟨_, by positivity, h⟩

end Cert.Spec

end
-- ==== Proof.PassOne.lean ====
/-
  The first pass of the kernel over its 25 grid points: the block of column sums.

  Point t handles strip t: rows 400·t … 400·t + 399 of the adjacency matrix and of x. PassOnePieces reads one
  point: rows 0–3 of the 8 × 128 block hold what they held before (zero at the first point) plus the column sums,
  over the strip, of x, x², a = adj · x and a². The strips' entries are the arrays' entries at row 400·t + r, so
  by induction on the point the block after point n holds the strip sums accumulated from zero over points 0 … n.
  The extended reals are a commutative monoid under addition, so after the last point the accumulated strip sums
  are the sums over all 10000 rows (25 · 400 = 10000); no finiteness is used. The block is written back to its
  array once, after the last point, and the block is the whole array.
-/
import proofs.«116730_g22660247454026_cont_sun_m_460_4_alg».proof.Proof.PassOnePieces
import proofs.«116730_g22660247454026_cont_sun_m_460_4_alg».proof.Proof.PassOneFlush
import proofs.«116730_g22660247454026_cont_sun_m_460_4_alg».proof.Proof.LibStrips
import proofs.«116730_g22660247454026_cont_sun_m_460_4_alg».proof.Proof.Spec

noncomputable section

open Idealize.ShloMosaic Idealize.ShloMosaic.TcCoe Idealize.SL.Sem
open Idealize.ShloMosaic.Pipeline (Dat)

namespace Cert.KernelIdeal.PassOne

open Cert.KernelIdeal Cert.KernelIdeal.Gen Idealize.ShloMosaic.ValueIdx

variable (V : (c : Dev nD) → (b : Ref sig .tc) → Buf (Elt Ideal) ((c : Thread nD τ).loc b))

/-! ## The columns, strip by strip -/

/-- Row m of a column of 10000 entries, as a function of the natural row number (zero past the end). -/
def rowN (g : Fin 10000 → EReal) (m : ℕ) : EReal := if h : m < 10000 then g ⟨m, h⟩ else 0

/-- The sum of a column over strip t: rows 400·t to 400·t + 399. -/
def strip (g : Fin 10000 → EReal) (t : ℕ) : EReal := ∑ r : Fin 400, rowN g (400 * t + r.val)

/-- Inside the array the natural row number reads the row. -/
theorem rowN_eq (g : Fin 10000 → EReal) (m : ℕ) (h : m < 10000) : rowN g m = g ⟨m, h⟩ := dif_pos h

/-- Accumulated from zero over the 25 strips, the strip sums are the column's sum. -/
theorem chain_strip_last (g : Fin 10000 → EReal) : Cert.LibStrips.chain (strip g) 24 = ∑ i : Fin 10000, g i := by
  rw [Cert.LibStrips.chain_24, Cert.LibStrips.sum_strips]
  exact Finset.sum_congr rfl fun t _ => Finset.sum_congr rfl fun r _ => rowN_eq g _ _

/-- Column k of x. -/
def colX (X : Cert.Spec.SX.Idx → EReal) (k : Fin 128) (i : Fin 10000) : EReal := X (ix2 i k)
/-- Column k of x². -/
def colXX (X : Cert.Spec.SX.Idx → EReal) (k : Fin 128) (i : Fin 10000) : EReal := colX X k i * colX X k i
/-- Column k of a = adj · x. -/
def colA (A : Cert.Spec.SA.Idx → EReal) (X : Cert.Spec.SX.Idx → EReal) (k : Fin 128) (i : Fin 10000) : EReal :=
  Cert.Spec.agg A X i k
/-- Column k of a². -/
def colAA (A : Cert.Spec.SA.Idx → EReal) (X : Cert.Spec.SX.Idx → EReal) (k : Fin 128) (i : Fin 10000) : EReal :=
  colA A X k i * colA A X k i

/-! ## The windows' blocks at an index -/

/-- The printed index maps over the grid: the adjacency strip, the x strip move down one block per point; the
    whole operand stays. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The x strip of point t at (r, k) is x at (400·t + r, k). -/
theorem blk2_apply (c : Dev nD) (t : Fin cfg0.N) (r : Fin 400) (k : Fin 128) (h : 400 * t.val + r.val < 10000) :
    (iblk0 V c 2 t : Vec Ideal S400x128 .f32) (ix2 r k) = colX (V c main_arg0) k ⟨400 * t.val + r.val, h⟩ := by
  obtain ⟨-, -, -, -, e0, e1⟩ := idx_facts t
  show V c main_arg0 (((cfg0.win 2).blk t).view.emb (ix2 r k)) = V c main_arg0 (ix2 ⟨400 * t.val + r.val, h⟩ k)
  refine congrArg (V c main_arg0) ?_
  funext a
  apply Fin.ext
  match a with
  | ⟨0, _⟩ => show win0_2.index t (0 : Fin 2) * 400 + 1 * r.val = 400 * t.val + r.val; omega
  | ⟨1, _⟩ => show win0_2.index t (1 : Fin 2) * 128 + 1 * k.val = k.val; omega

/-- The adjacency strip of point t at (r, q) is the adjacency matrix at (400·t + r, q). -/
theorem blk1_apply (c : Dev nD) (t : Fin cfg0.N) (r : Fin 400) (q : Fin 10000) (h : 400 * t.val + r.val < 10000)
    (A : Cert.Spec.SA.Idx → EReal) (hA : A = V c main_arg1) :
    (iblk0 V c 1 t : Vec Ideal S400x10000 .f32) (ix2 r q) = A (ix2 ⟨400 * t.val + r.val, h⟩ q) := by
  obtain ⟨-, -, e0, e1, -, -⟩ := idx_facts t
  subst hA
  show V c main_arg1 (((cfg0.win 1).blk t).view.emb (ix2 r q)) = V c main_arg1 (ix2 ⟨400 * t.val + r.val, h⟩ q)
  refine congrArg (V c main_arg1) ?_
  funext a
  apply Fin.ext
  match a with
  | ⟨0, _⟩ => show win0_1.index t (0 : Fin 2) * 400 + 1 * r.val = 400 * t.val + r.val; omega
  | ⟨1, _⟩ => show win0_1.index t (1 : Fin 2) * 10000 + 1 * q.val = q.val; omega

/-- The whole operand at every point. -/
theorem blk0_apply (c : Dev nD) (t : Fin cfg0.N) (q : Fin 10000) (k : Fin 128)
    (X : Cert.Spec.SX.Idx → EReal) (hX : X = V c main_v0) :
    (iblk0 V c 0 t : Vec Ideal S10000x128 .bf16) (ix2 q k) = X (ix2 q k) := by
  obtain ⟨e0, e1, -, -, -, -⟩ := idx_facts t
  subst hX
  show V c main_v0 (((cfg0.win 0).blk t).view.emb (ix2 q k)) = V c main_v0 (ix2 q k)
  refine congrArg (V c main_v0) ?_
  funext a
  apply Fin.ext
  match a with
  | ⟨0, _⟩ => show win0_0.index t (0 : Fin 2) * 10000 + 1 * q.val = q.val; omega
  | ⟨1, _⟩ => show win0_0.index t (1 : Fin 2) * 128 + 1 * k.val = k.val; omega

/-! ## One point's four column sums are the strip's -/

/-- A strip whose entries are rows 400·n … of a column sums to that column's strip sum. -/
theorem strip_of (x : Vec Ideal S400x128 .f32) (k : Fin 128) (g : Fin 10000 → EReal) (n : ℕ) (hn : n < 25)
    (hx : ∀ (r : Fin 400) (h : 400 * n + r.val < 10000), x (ix2 r k) = g ⟨400 * n + r.val, h⟩) :
    ∑ r : Fin 400, x (ix2 r k) = strip g n :=
  Finset.sum_congr rfl fun r _ =>
    (hx r (by have := r.isLt; omega)).trans (rowN_eq g _ (by have := r.isLt; omega)).symm

/-- The same for the squares. -/
theorem strip_sq_of (x : Vec Ideal S400x128 .f32) (k : Fin 128) (g : Fin 10000 → EReal) (n : ℕ) (hn : n < 25)
    (hx : ∀ (r : Fin 400) (h : 400 * n + r.val < 10000), x (ix2 r k) = g ⟨400 * n + r.val, h⟩) :
    ∑ r : Fin 400, x (ix2 r k) * x (ix2 r k) = strip (fun i => g i * g i) n :=
  Finset.sum_congr rfl fun r _ => by
    rw [hx r (by have := r.isLt; omega)]
    exact (rowN_eq (fun i => g i * g i) _ (by have := r.isLt; omega)).symm

/-- The product strip at (r, k), when the strip's row r is row i of the matrix: a = adj · x at (i, k). -/
theorem entry_of (x1 : Vec Ideal S400x10000 .f32) (x0 : Vec Ideal S10000x128 .bf16)
    (A : Cert.Spec.SA.Idx → EReal) (X : Cert.Spec.SX.Idx → EReal) (r : Fin 400) (k : Fin 128) (i : Fin 10000)
    (h1 : ∀ q : Fin 10000, x1 (ix2 r q) = A (ix2 i q)) (h0 : ∀ q : Fin 10000, x0 (ix2 q k) = X (ix2 q k)) :
    k0_pay3 (F := Ideal) x1 x0 (ix2 r k) = Cert.Spec.agg A X i k :=
  (pay3_apply x1 x0 r k).trans (Finset.sum_congr rfl fun q _ => by rw [h1 q, h0 q])

theorem point_lt (t : Fin cfg0.N) : t.val < 25 := lt_of_lt_of_eq t.isLt (show cfg0.N = 25 from N_0)

/-- The product strip of point t at (r, k) is a = adj · x at (400·t + r, k). -/
theorem strip_entry (c : Dev nD) (t : Fin cfg0.N) (r : Fin 400) (k : Fin 128) (h : 400 * t.val + r.val < 10000) :
    k0_pay3 (F := Ideal) (iblk0 V c 1 t) (iblk0 V c 0 t) (ix2 r k)
      = colA (V c main_arg1) (V c main_v0) k ⟨400 * t.val + r.val, h⟩ :=
  entry_of (iblk0 V c 1 t) (iblk0 V c 0 t) (V c main_arg1) (V c main_v0) r k ⟨400 * t.val + r.val, h⟩
    (fun q => blk1_apply V c t r q h _ rfl) (fun q => blk0_apply V c t q k _ rfl)

/-! ## The block of sums after each point -/

/-- At the first point the block is what the zeroing case leaves. -/
theorem outs_A (c : Dev nD) (t : Fin cfg0.N) (h0 : t.val % 25 = 0) :
    (outsAt0 V c t.val t.isLt).2 = out0_A_4 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t) :=
  congrArg Prod.snd (outsAt0_A V c t h0)

/-- At a later point it is what the continuing case leaves over the block of the point before. -/
theorem outs_B (c : Dev nD) (t : Fin cfg0.N) (h0 : ¬t.val % 25 = 0) :
    (outsAt0 V c t.val t.isLt).2 = out0_B_4 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t) (outsAt0 V c (t.val - 1) (Nat.lt_of_le_of_lt (Nat.sub_le _ _) t.isLt)).2 :=
  congrArg Prod.snd (outsAt0_B V c t h0)

/-- Rows 0–3 after the first point: zero plus the first strip's sums. -/
theorem rows_A (c : Dev nD) (t : Fin cfg0.N) (h0 : t.val % 25 = 0) (k : Fin 128) :
    (outsAt0 V c t.val t.isLt).2 (ix2 (0 : Fin 8) k) = 0 + strip (colX (V c main_arg0) k) t.val
    ∧ (outsAt0 V c t.val t.isLt).2 (ix2 (1 : Fin 8) k) = 0 + strip (colXX (V c main_arg0) k) t.val
    ∧ (outsAt0 V c t.val t.isLt).2 (ix2 (2 : Fin 8) k) = 0 + strip (colA (V c main_arg1) (V c main_v0) k) t.val
    ∧ (outsAt0 V c t.val t.isLt).2 (ix2 (3 : Fin 8) k) = 0 + strip (colAA (V c main_arg1) (V c main_v0) k) t.val := by
  rw [outs_A V c t h0]
  refine ⟨?_, ?_, ?_, ?_⟩
  · exact (out_A_4_r0 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t) k).trans
      (congrArg (0 + ·) (strip_of (iblk0 V c 2 t) k (colX (V c main_arg0) k) t.val (point_lt t) fun r h => blk2_apply V c t r k h))
  · exact (out_A_4_r1 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t) k).trans
      (congrArg (0 + ·) (strip_sq_of (iblk0 V c 2 t) k (colX (V c main_arg0) k) t.val (point_lt t) fun r h => blk2_apply V c t r k h))
  · exact (out_A_4_r2 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t) k).trans
      (congrArg (0 + ·) (strip_of (k0_pay3 (F := Ideal) (iblk0 V c 1 t) (iblk0 V c 0 t)) k (colA (V c main_arg1) (V c main_v0) k) t.val (point_lt t) fun r h => strip_entry V c t r k h))
  · exact (out_A_4_r3 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t) k).trans
      (congrArg (0 + ·) (strip_sq_of (k0_pay3 (F := Ideal) (iblk0 V c 1 t) (iblk0 V c 0 t)) k (colA (V c main_arg1) (V c main_v0) k) t.val (point_lt t) fun r h => strip_entry V c t r k h))

/-- Rows 0–3 after a later point: the rows after the point before, plus this strip's sums. -/
theorem rows_B (c : Dev nD) (t : Fin cfg0.N) (h0 : ¬t.val % 25 = 0) (k : Fin 128) :
    (outsAt0 V c t.val t.isLt).2 (ix2 (0 : Fin 8) k)
        = (outsAt0 V c (t.val - 1) (Nat.lt_of_le_of_lt (Nat.sub_le _ _) t.isLt)).2 (ix2 (0 : Fin 8) k) + strip (colX (V c main_arg0) k) t.val
    ∧ (outsAt0 V c t.val t.isLt).2 (ix2 (1 : Fin 8) k)
        = (outsAt0 V c (t.val - 1) (Nat.lt_of_le_of_lt (Nat.sub_le _ _) t.isLt)).2 (ix2 (1 : Fin 8) k) + strip (colXX (V c main_arg0) k) t.val
    ∧ (outsAt0 V c t.val t.isLt).2 (ix2 (2 : Fin 8) k)
        = (outsAt0 V c (t.val - 1) (Nat.lt_of_le_of_lt (Nat.sub_le _ _) t.isLt)).2 (ix2 (2 : Fin 8) k) + strip (colA (V c main_arg1) (V c main_v0) k) t.val
    ∧ (outsAt0 V c t.val t.isLt).2 (ix2 (3 : Fin 8) k)
        = (outsAt0 V c (t.val - 1) (Nat.lt_of_le_of_lt (Nat.sub_le _ _) t.isLt)).2 (ix2 (3 : Fin 8) k) + strip (colAA (V c main_arg1) (V c main_v0) k) t.val := by
  rw [outs_B V c t h0]
  refine ⟨?_, ?_, ?_, ?_⟩
  · exact (out_B_4_r0 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t) (outsAt0 V c (t.val - 1) (Nat.lt_of_le_of_lt (Nat.sub_le _ _) t.isLt)).2 k).trans
      (congrArg ((outsAt0 V c (t.val - 1) (Nat.lt_of_le_of_lt (Nat.sub_le _ _) t.isLt)).2 (ix2 (0 : Fin 8) k) + ·) (strip_of (iblk0 V c 2 t) k (colX (V c main_arg0) k) t.val (point_lt t) fun r h => blk2_apply V c t r k h))
  · exact (out_B_4_r1 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t) (outsAt0 V c (t.val - 1) (Nat.lt_of_le_of_lt (Nat.sub_le _ _) t.isLt)).2 k).trans
      (congrArg ((outsAt0 V c (t.val - 1) (Nat.lt_of_le_of_lt (Nat.sub_le _ _) t.isLt)).2 (ix2 (1 : Fin 8) k) + ·) (strip_sq_of (iblk0 V c 2 t) k (colX (V c main_arg0) k) t.val (point_lt t) fun r h => blk2_apply V c t r k h))
  · exact (out_B_4_r2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t) (outsAt0 V c (t.val - 1) (Nat.lt_of_le_of_lt (Nat.sub_le _ _) t.isLt)).2 k).trans
      (congrArg ((outsAt0 V c (t.val - 1) (Nat.lt_of_le_of_lt (Nat.sub_le _ _) t.isLt)).2 (ix2 (2 : Fin 8) k) + ·) (strip_of (k0_pay3 (F := Ideal) (iblk0 V c 1 t) (iblk0 V c 0 t)) k (colA (V c main_arg1) (V c main_v0) k) t.val (point_lt t) fun r h => strip_entry V c t r k h))
  · exact (out_B_4_r3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t) (outsAt0 V c (t.val - 1) (Nat.lt_of_le_of_lt (Nat.sub_le _ _) t.isLt)).2 k).trans
      (congrArg ((outsAt0 V c (t.val - 1) (Nat.lt_of_le_of_lt (Nat.sub_le _ _) t.isLt)).2 (ix2 (3 : Fin 8) k) + ·) (strip_sq_of (k0_pay3 (F := Ideal) (iblk0 V c 1 t) (iblk0 V c 0 t)) k (colA (V c main_arg1) (V c main_v0) k) t.val (point_lt t) fun r h => strip_entry V c t r k h))

/-- THE INVARIANT: after point n, rows 0–3 of the block hold the strip sums of x, x², a, a² accumulated from zero
    over points 0 to n — by induction on the point. -/
theorem rows_eq (c : Dev nD) : ∀ (n : ℕ) (h : n < cfg0.N) (k : Fin 128),
    (outsAt0 V c n h).2 (ix2 (0 : Fin 8) k) = Cert.LibStrips.chain (strip (colX (V c main_arg0) k)) n
    ∧ (outsAt0 V c n h).2 (ix2 (1 : Fin 8) k) = Cert.LibStrips.chain (strip (colXX (V c main_arg0) k)) n
    ∧ (outsAt0 V c n h).2 (ix2 (2 : Fin 8) k) = Cert.LibStrips.chain (strip (colA (V c main_arg1) (V c main_v0) k)) n
    ∧ (outsAt0 V c n h).2 (ix2 (3 : Fin 8) k) = Cert.LibStrips.chain (strip (colAA (V c main_arg1) (V c main_v0) k)) n
  | 0, h, k => rows_A V c ⟨0, h⟩ rfl k
  | n + 1, h, k => by
    have hN : cfg0.N = 25 := N_0
    have hB : ¬(⟨n + 1, h⟩ : Fin cfg0.N).val % 25 = 0 := by dsimp only; omega
    obtain ⟨b0, b1, b2, b3⟩ := rows_B V c ⟨n + 1, h⟩ hB k
    obtain ⟨i0, i1, i2, i3⟩ := rows_eq c n (Nat.lt_of_succ_lt h) k
    exact ⟨b0.trans (congrArg (· + strip (colX (V c main_arg0) k) (n + 1)) i0),
      b1.trans (congrArg (· + strip (colXX (V c main_arg0) k) (n + 1)) i1),
      b2.trans (congrArg (· + strip (colA (V c main_arg1) (V c main_v0) k) (n + 1)) i2),
      b3.trans (congrArg (· + strip (colAA (V c main_arg1) (V c main_v0) k) (n + 1)) i3)⟩

/-- After the last point: the four column sums. -/
theorem rows_last (c : Dev nD) (k : Fin 128) :
    (outsAt0 V c 24 (by rw [show cfg0.N = 25 from N_0]; decide)).2 (ix2 (0 : Fin 8) k) = Cert.Spec.colSum (V c main_arg0) k
    ∧ (outsAt0 V c 24 (by rw [show cfg0.N = 25 from N_0]; decide)).2 (ix2 (1 : Fin 8) k) = Cert.Spec.colSumSq (V c main_arg0) k
    ∧ (outsAt0 V c 24 (by rw [show cfg0.N = 25 from N_0]; decide)).2 (ix2 (2 : Fin 8) k) = Cert.Spec.aggSum (V c main_arg1) (V c main_v0) k
    ∧ (outsAt0 V c 24 (by rw [show cfg0.N = 25 from N_0]; decide)).2 (ix2 (3 : Fin 8) k) = Cert.Spec.aggSumSq (V c main_arg1) (V c main_v0) k := by
  obtain ⟨e0, e1, e2, e3⟩ := rows_eq V c 24 (by rw [show cfg0.N = 25 from N_0]; decide) k
  exact ⟨e0.trans (chain_strip_last _), e1.trans (chain_strip_last _), e2.trans (chain_strip_last _), e3.trans (chain_strip_last _)⟩

/-- THE RESULT: the array of sums after the first pass holds, in rows 0–3 at column k, the column sums of x, x²,
    a = adj · x and a² over all 10000 rows. -/
theorem sums_eq (c : Dev nD) (k : Fin 128) :
    (dat0 V c).arrAt 4 cfg0.N (ix2 0 k) = Cert.Spec.colSum (V c main_arg0) k
    ∧ (dat0 V c).arrAt 4 cfg0.N (ix2 1 k) = Cert.Spec.colSumSq (V c main_arg0) k
    ∧ (dat0 V c).arrAt 4 cfg0.N (ix2 2 k) = Cert.Spec.aggSum (V c main_arg1) (V c main_v0) k
    ∧ (dat0 V c).arrAt 4 cfg0.N (ix2 3 k) = Cert.Spec.aggSumSq (V c main_arg1) (V c main_v0) k := by
  rw [Cert.KernelIdeal.PassOneFlush.arr4_eq V c]
  exact rows_last V c k

end Cert.KernelIdeal.PassOne

end
-- ==== Proof.PassTwoPayload.lean ====
/-
  The kernel's second pass, inside one grid point: what the body leaves in its output block, read at a row p of the block
  and an output n, as a function of the eight input blocks.

  The body takes the column sums s, q of x and of a from rows 0–3 of the 8 × 128 block, forms the means s·N⁻¹ and the
  variances q·N⁻¹ − (s·N⁻¹)² with N⁻¹ the exact 1/10000, scales by γ·(σ² + ε)^(−1/2), adds β, multiplies each normalised
  half with its 128 × 128 half of W along the columns of both, adds the two products and the bias row. Each operation is
  read at an index; the two products become sums over the 128 columns.
-/
import proofs.«116730_g22660247454026_cont_sun_m_460_4_alg».proof.Proof.Spec
import proofs.«116730_g22660247454026_cont_sun_m_460_4_alg».proof.Proof.Gen.KernelIdeal.Frame
import Idealize.ShloMosaic.Lib.ValueLayout
import Idealize.ShloMosaic.PureOps.Ideal.Laws

noncomputable section

namespace Cert.KernelIdeal.PassTwo

open Cert.KernelIdeal Cert.KernelIdeal.Gen Idealize.ShloMosaic Idealize.ShloMosaic.ValueIdx

/-- The named reciprocal denotes the exact 1/10000. -/
theorem inv_n : Named.named (F := Ideal) Cert.KernelIdeal.κ "inv_10000" (φ := .f32) 0x38D1B717#32 = Cert.Spec.invN :=
  IdealRules.named_const.ideal_named_scalar _ _ _ _ rfl

/-- The mean of a's columns: the row of sums times N⁻¹. -/
theorem pay2_apply (v10 : Vec Ideal S1x128 .f32) (i : S1x128.Idx) :
    k1_pay2 v10 i = v10 i * Cert.Spec.invN := by
  unfold k1_pay2
  rw [shapeCast_self]
  show v10 i * Named.named (F := Ideal) Cert.KernelIdeal.κ "inv_10000" (φ := .f32) 0x38D1B717#32 = _
  rw [inv_n]

/-- The scale of a's columns: γ's row over the standard deviation. -/
theorem pay3_apply (v10 v14 v26 : Vec Ideal S1x128 .f32) (i : S1x128.Idx) :
    k1_pay3 v10 v14 v26 i
      = v26 i * Ideal.rsqrt ((v14 i * Cert.Spec.invN - (v10 i * Cert.Spec.invN) * (v10 i * Cert.Spec.invN)) + Cert.Spec.eps) := by
  unfold k1_pay3
  rw [shapeCast_self, shapeCast_self]
  show v26 i * Ideal.rsqrt ((v14 i * Named.named (F := Ideal) Cert.KernelIdeal.κ "inv_10000" (φ := .f32) 0x38D1B717#32 - k1_pay2 v10 i * k1_pay2 v10 i) + Cert.Spec.eps) = _
  rw [inv_n, pay2_apply]

/-- A row broadcast over the block's 1000 rows reads the row. -/
theorem row_apply (v : FVec Ideal S1x128 .f32) (h : S1x128.Broadcasts S1000x128) (p : Fin 1000) (k : Fin 128) :
    broadcastTo S1000x128 v h (ix2 p k) = v (ix2 (0 : Fin 1) k) :=
  broadcastTo_1b_ab_apply v h p k

/-- The x-half, centred and scaled (β not yet added), at row p and column k. -/
theorem pay4_apply (v0 v4 v20 : Vec Ideal S1x128 .f32) (v32 : Vec Ideal S1000x128 .f32) (p : Fin 1000) (k : Fin 128) :
    k1_pay4 v0 v4 v20 v32 (ix2 p k)
      = (v32 (ix2 p k) - v0 (ix2 (0 : Fin 1) k) * Cert.Spec.invN)
        * (v20 (ix2 (0 : Fin 1) k) * Ideal.rsqrt ((v4 (ix2 (0 : Fin 1) k) * Cert.Spec.invN
            - (v0 (ix2 (0 : Fin 1) k) * Cert.Spec.invN) * (v0 (ix2 (0 : Fin 1) k) * Cert.Spec.invN)) + Cert.Spec.eps)) := by
  unfold k1_pay4
  rw [shapeCast_self, shapeCast_self, shapeCast_self]
  rw [mulf_apply, subf_apply, row_apply, row_apply]
  show (v32 (ix2 p k) - v0 (ix2 (0 : Fin 1) k) * Named.named (F := Ideal) Cert.KernelIdeal.κ "inv_10000" (φ := .f32) 0x38D1B717#32)
        * (v20 (ix2 (0 : Fin 1) k) * Ideal.rsqrt ((v4 (ix2 (0 : Fin 1) k) * Named.named (F := Ideal) Cert.KernelIdeal.κ "inv_10000" (φ := .f32) 0x38D1B717#32
            - (v0 (ix2 (0 : Fin 1) k) * Named.named (F := Ideal) Cert.KernelIdeal.κ "inv_10000" (φ := .f32) 0x38D1B717#32) * (v0 (ix2 (0 : Fin 1) k) * Named.named (F := Ideal) Cert.KernelIdeal.κ "inv_10000" (φ := .f32) 0x38D1B717#32)) + Cert.Spec.eps)) = _
  rw [inv_n]

/-- The matrix unit's product of a 1000 × 128 block with a 128 × 128 half of W, both contracted along their columns, into a
    zero accumulator: at (p, n) the sum over the 128 columns. -/
theorem mm_apply (L : FVec Ideal S1000x128 .f32) (R : FVec Ideal S128x128 .f32) (p : Fin 1000) (n : Fin 128) :
    FloatOps.matmul dot_S1000x128_S128x128_S1000x128_1_1_0_0_n_n none L R (constant (F := Ideal) S1000x128 .f32 0x00000000#32) (ix2 p n)
      = ∑ k : Fin 128, L (ix2 p k) * R (ix2 n k) := by
  rw [Ideal.matmul_constant_zero_apply,
    ← Equiv.sum_comp (contrEquiv1 dot_S1000x128_S128x128_S1000x128_1_1_0_0_n_n 128 rfl rfl).symm]
  refine Finset.sum_congr rfl fun k _ => ?_
  have hk := contrEquiv1_symm_val dot_S1000x128_S128x128_S1000x128_1_1_0_0_n_n 128 rfl rfl k
  have el : dot_S1000x128_S128x128_S1000x128_1_1_0_0_n_n.lhsIdx (ix2 p n)
      ((contrEquiv1 dot_S1000x128_S128x128_S1000x128_1_1_0_0_n_n 128 rfl rfl).symm k) = ix2 p k :=
    funext fun a => Fin.ext (by
      match a with
      | ⟨0, _⟩ => simp [DotDims.lhsIdx, dot_S1000x128_S128x128_S1000x128_1_1_0_0_n_n]; rfl
      | ⟨1, _⟩ => exact (DotDims.lhsIdx_val_of_single _ (cl := (1 : Fin 2)) rfl _ _).trans hk)
  have er : dot_S1000x128_S128x128_S1000x128_1_1_0_0_n_n.rhsIdx (ix2 p n)
      ((contrEquiv1 dot_S1000x128_S128x128_S1000x128_1_1_0_0_n_n 128 rfl rfl).symm k) = ix2 n k :=
    funext fun a => Fin.ext (by
      match a with
      | ⟨0, _⟩ => simp [DotDims.rhsIdx, dot_S1000x128_S128x128_S1000x128_1_1_0_0_n_n]; rfl
      | ⟨1, _⟩ => exact (DotDims.rhsIdx_val_of_single _ (cr := (1 : Fin 2)) rfl _ _).trans hk)
  rw [el, er]

/-- The stored value at row p, output n: the two products over the 128 columns, then the bias. -/
theorem pay1_apply (v13 v31 : FVec Ideal S1x128 .f32) (v36 : FVec Ideal S1000x128 .f32) (v37 : Vec Ideal S1x128 .f32)
    (v41 : Vec Ideal S1000x128 .f32) (v47 : Vec Ideal S1x128 .f32) (v51 v54 : Vec Ideal S128x128 .f32) (v58 : Vec Ideal S1x128 .f32)
    (p : Fin 1000) (n : Fin 128) :
    k1_pay1 v13 v31 v36 v37 v41 v47 v51 v54 v58 (ix2 p n)
      = (∑ k : Fin 128, (v36 (ix2 p k) + v37 (ix2 (0 : Fin 1) k)) * v51 (ix2 n k)
          + ∑ k : Fin 128, ((v41 (ix2 p k) - v13 (ix2 (0 : Fin 1) k)) * v31 (ix2 (0 : Fin 1) k) + v47 (ix2 (0 : Fin 1) k)) * v54 (ix2 n k))
        + v58 (ix2 (0 : Fin 1) n) := by
  unfold k1_pay1
  rw [shapeCast_self, shapeCast_self, shapeCast_self, shapeCast_self, shapeCast_self, shapeCast_self]
  rw [addf_apply, addf_apply, row_apply]
  refine congrArg (· + v58 (ix2 (0 : Fin 1) n)) (congrArg₂ (· + ·) ((mm_apply _ _ p n).trans ?_) ((mm_apply _ _ p n).trans ?_))
  · exact Finset.sum_congr rfl fun k _ => by rw [addf_apply, row_apply]
  · exact Finset.sum_congr rfl fun k _ => by rw [addf_apply, mulf_apply, subf_apply, row_apply, row_apply, row_apply]

/-! ## The block's value as one function of the blocks -/

/-- The normalised x-half over a block of 1000 rows. -/
def bh1 (st : Cert.Spec.SS.Idx → EReal) (g2 b2 : Cert.Spec.SG.Idx → EReal) (x : S1000x128.Idx → EReal) (p : Fin 1000) (k : Fin 128) : EReal :=
  (x (ix2 p k) - Cert.Spec.kmean st 0 k) * Cert.Spec.kscale st g2 0 0 1 k + b2 (ix2 0 k)
/-- The normalised a-half over a block of 1000 rows. -/
def bh2 (st : Cert.Spec.SS.Idx → EReal) (g2 b2 : Cert.Spec.SG.Idx → EReal) (a : S1000x128.Idx → EReal) (p : Fin 1000) (k : Fin 128) : EReal :=
  (a (ix2 p k) - Cert.Spec.kmean st 2 k) * Cert.Spec.kscale st g2 1 2 3 k + b2 (ix2 1 k)
/-- The second pass's result on a block, at the block's row p and output n. -/
def blockOut (st : Cert.Spec.SS.Idx → EReal) (g2 b2 : Cert.Spec.SG.Idx → EReal) (w1 w2 : Cert.Spec.SH.Idx → EReal) (br : Cert.Spec.SR.Idx → EReal)
    (x a : S1000x128.Idx → EReal) (p : Fin 1000) (n : Fin 128) : EReal :=
  (∑ k : Fin 128, bh1 st g2 b2 x p k * w1 (ix2 n k) + ∑ k : Fin 128, bh2 st g2 b2 a p k * w2 (ix2 n k)) + br (ix2 0 n)

/-- The result at a row of the array is the block's at the row inside it, when the two blocks hold that row of x and of a. -/
theorem kout_eq_blockOut (st : Cert.Spec.SS.Idx → EReal) (g2 b2 : Cert.Spec.SG.Idx → EReal) (w1 w2 : Cert.Spec.SH.Idx → EReal)
    (br : Cert.Spec.SR.Idx → EReal) (X A : Cert.Spec.SX.Idx → EReal) (x a : S1000x128.Idx → EReal) (i : Fin 10000) (p : Fin 1000) (n : Fin 128)
    (hx : ∀ k : Fin 128, x (ix2 p k) = X (ix2 i k)) (ha : ∀ k : Fin 128, a (ix2 p k) = A (ix2 i k)) :
    blockOut st g2 b2 w1 w2 br x a p n = Cert.Spec.kout st g2 b2 w1 w2 br X A i n := by
  unfold blockOut Cert.Spec.kout bh1 bh2 Cert.Spec.kh1 Cert.Spec.kh2
  simp only [hx, ha]

/-- The zero offsets, however spelt. -/
theorem hz : (![0, 0] : Fin 2 → Nat) = fun _ => 0 := funext fun a => by fin_cases a <;> rfl

/-- A row of the block of sums, loaded as a [1,128] vector. -/
theorem ld_r1_0 (X : Vec Ideal S8x128 .f32) (k : Fin 128) : View.ld X r1_0 (ix2 (0 : Fin 1) k) = X (ix2 (0 : Fin 8) k) :=
  congrArg X (funext fun a => Fin.ext (by match a with | ⟨0, _⟩ => rfl | ⟨1, _⟩ => show 0 + 1 * k.val = k.val; omega))
theorem ld_r1_1 (X : Vec Ideal S8x128 .f32) (k : Fin 128) : View.ld X r1_1 (ix2 (0 : Fin 1) k) = X (ix2 (1 : Fin 8) k) :=
  congrArg X (funext fun a => Fin.ext (by match a with | ⟨0, _⟩ => rfl | ⟨1, _⟩ => show 0 + 1 * k.val = k.val; omega))
theorem ld_r1_2 (X : Vec Ideal S8x128 .f32) (k : Fin 128) : View.ld X r1_2 (ix2 (0 : Fin 1) k) = X (ix2 (2 : Fin 8) k) :=
  congrArg X (funext fun a => Fin.ext (by match a with | ⟨0, _⟩ => rfl | ⟨1, _⟩ => show 0 + 1 * k.val = k.val; omega))
theorem ld_r1_3 (X : Vec Ideal S8x128 .f32) (k : Fin 128) : View.ld X r1_3 (ix2 (0 : Fin 1) k) = X (ix2 (3 : Fin 8) k) :=
  congrArg X (funext fun a => Fin.ext (by match a with | ⟨0, _⟩ => rfl | ⟨1, _⟩ => show 0 + 1 * k.val = k.val; omega))
/-- A row of γ or β, loaded as a [1,128] vector. -/
theorem ld_r1_4 (X : Vec Ideal S2x128 .f32) (k : Fin 128) : View.ld X r1_4 (ix2 (0 : Fin 1) k) = X (ix2 (0 : Fin 2) k) :=
  congrArg X (funext fun a => Fin.ext (by match a with | ⟨0, _⟩ => rfl | ⟨1, _⟩ => show 0 + 1 * k.val = k.val; omega))
theorem ld_r1_5 (X : Vec Ideal S2x128 .f32) (k : Fin 128) : View.ld X r1_5 (ix2 (0 : Fin 1) k) = X (ix2 (1 : Fin 2) k) :=
  congrArg X (funext fun a => Fin.ext (by match a with | ⟨0, _⟩ => rfl | ⟨1, _⟩ => show 0 + 1 * k.val = k.val; omega))

/-- What the body leaves in the output block, at the block's row p and output n. -/
theorem out_apply (x0 : Vec Ideal S8x128 .f32) (x1 x2 : Vec Ideal S2x128 .f32) (x3 x4 : Vec Ideal S128x128 .f32)
    (x5 : Vec Ideal S1x128 .f32) (x6 x7 : Vec Ideal S1000x128 .f32) (p : Fin 1000) (n : Fin 128) :
    out1_8 x0 x1 x2 x3 x4 x5 x6 x7 (ix2 p n) = blockOut x0 x1 x2 x3 x4 x5 x6 x7 p n := by
  unfold out1_8
  rw [View.canon_unit_zero hz]
  simp only [View.ld_unit_zero (S := S1000x128) hz, View.ld_unit_zero (S := S128x128) hz, View.ld_unit_zero (S := S1x128) hz]
  rw [pay1_apply]
  unfold blockOut bh1 bh2 Cert.Spec.kscale Cert.Spec.kvar Cert.Spec.kmean
  simp only [pay4_apply, pay3_apply, pay2_apply]
  refine congrArg (· + x5 (ix2 (0 : Fin 1) n)) (congrArg₂ (· + ·) (Finset.sum_congr rfl fun k _ => ?_) (Finset.sum_congr rfl fun k _ => ?_))
  · rw [ld_r1_0 x0 k, ld_r1_1 x0 k, ld_r1_4 x1 k, ld_r1_4 x2 k]
  · rw [ld_r1_2 x0 k, ld_r1_3 x0 k, ld_r1_5 x1 k, ld_r1_5 x2 k]

end Cert.KernelIdeal.PassTwo

end
-- ==== Proof.PassTwo.lean ====
/-
  The kernel's second pass over its ten grid points: the result array, entry by entry.

  At point t the six small operands (the block of column sums, γ and β as two rows, the two halves of W, the bias row) are
  staged whole, and x, a and the result are staged in blocks of 1000 rows, block t at point t. So what point t writes back
  is block t of ONE function of the arrays the region finds — the second pass's result at row 1000·t + p is the block's at
  its row p —, the ten blocks cover the 10000 rows, and the array ends holding that function.
-/
import proofs.«116730_g22660247454026_cont_sun_m_460_4_alg».proof.Proof.PassTwoPayload
import Idealize.ShloMosaic.Lib.Pipeline.Value

noncomputable section

namespace Cert.KernelIdeal.PassTwo

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The result array as one function of the arrays the region finds. -/
def G (c : Dev nD) : S10000x128.Idx → EReal := fun j =>
  Cert.Spec.kout (V c main_v1_1) (V c main_v2) (V c main_v3) (V c main_v4) (V c main_v5) (V c main_v6) (V c main_arg0) (V c main_v1_0) (j 0) (j 1)

/-- The printed index maps, decided over the ten grid points: the six small operands are whole at every point; x, a and the
    result move together, block t at point t. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- The grid has ten points. -/
theorem N1 : cfg1.N = 10 := N_1

/-- An index of the result is in point t's block iff each coordinate is in the block's range on its axis. -/
theorem mem_blk (t : Fin cfg1.N) (i : S10000x128.Idx) :
    i ∈ ((cfg1.win 8).blk t).view.set ↔ ∀ a : Fin 2, win1_8.index t a * S1000x128.size a ≤ (i a).val ∧ (i a).val < win1_8.index t a * S1000x128.size a + S1000x128.size a := by
  show i ∈ ((View.whole main_v7).slice (win1_8.rect t)).set ↔ _
  rw [View.set_slice_whole, Rect.mem_set_unit]
  exact Iff.rfl

/-- Row i of the result is in the block of point i / 1000. -/
theorem cover (i : S10000x128.Idx) :
    ∃ t : Fin cfg1.N, (cfg1.win 8).flush t = true ∧ i ∈ ((cfg1.win 8).blk t).view.set := by
  have hi0 : (i 0).val < 10000 := (i 0).isLt
  have hi1 : (i 1).val < 128 := (i 1).isLt
  have ht : (i 0).val / 1000 < cfg1.N := by rw [N1]; omega
  refine ⟨⟨(i 0).val / 1000, ht⟩, flush1_8 _, ?_⟩
  rw [mem_blk]
  obtain ⟨-, -, -, -, -, -, -, -, -, -, -, -, -, -, -, -, e0, e1⟩ := idx_facts ⟨(i 0).val / 1000, ht⟩
  intro a
  match a with
  | ⟨0, _⟩ =>
    show win1_8.index ⟨(i 0).val / 1000, ht⟩ (0 : Fin 2) * 1000 ≤ (i 0).val ∧ (i 0).val < win1_8.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win1_8.index ⟨(i 0).val / 1000, ht⟩ (1 : Fin 2) * 128 ≤ (i 1).val ∧ (i 1).val < win1_8.index ⟨(i 0).val / 1000, ht⟩ (1 : Fin 2) * 128 + 128
    rw [e1]; omega

/-- The six small operands' blocks are their whole arrays at every point: first the block of column sums. -/
theorem blk0_eq (c : Dev nD) (t : Fin cfg1.N) (y : S8x128.Idx) : iblk1 V c 0 t y = V c main_v1_1 y := by
  obtain ⟨e0, e1, -⟩ := idx_facts t
  show V c main_v1_1 (((cfg1.win 0).blk t).view.emb y) = V c main_v1_1 y
  refine congrArg (V c main_v1_1) (funext fun a => Fin.ext ?_)
  match a with
  | ⟨0, _⟩ => show win1_0.index t (0 : Fin 2) * 8 + 1 * (y 0).val = (y 0).val; omega
  | ⟨1, _⟩ => show win1_0.index t (1 : Fin 2) * 128 + 1 * (y 1).val = (y 1).val; omega

/-- γ's two rows, whole at every point. -/
theorem blk1_eq (c : Dev nD) (t : Fin cfg1.N) (y : S2x128.Idx) : iblk1 V c 1 t y = V c main_v2 y := by
  obtain ⟨-, -, e0, e1, -⟩ := idx_facts t
  show V c main_v2 (((cfg1.win 1).blk t).view.emb y) = V c main_v2 y
  refine congrArg (V c main_v2) (funext fun a => Fin.ext ?_)
  match a with
  | ⟨0, _⟩ => show win1_1.index t (0 : Fin 2) * 2 + 1 * (y 0).val = (y 0).val; omega
  | ⟨1, _⟩ => show win1_1.index t (1 : Fin 2) * 128 + 1 * (y 1).val = (y 1).val; omega

/-- β's two rows, whole at every point. -/
theorem blk2_eq (c : Dev nD) (t : Fin cfg1.N) (y : S2x128.Idx) : iblk1 V c 2 t y = V c main_v3 y := by
  obtain ⟨-, -, -, -, e0, e1, -⟩ := idx_facts t
  show V c main_v3 (((cfg1.win 2).blk t).view.emb y) = V c main_v3 y
  refine congrArg (V c main_v3) (funext fun a => Fin.ext ?_)
  match a with
  | ⟨0, _⟩ => show win1_2.index t (0 : Fin 2) * 2 + 1 * (y 0).val = (y 0).val; omega
  | ⟨1, _⟩ => show win1_2.index t (1 : Fin 2) * 128 + 1 * (y 1).val = (y 1).val; omega

/-- The first half of W, whole at every point. -/
theorem blk3_eq (c : Dev nD) (t : Fin cfg1.N) (y : S128x128.Idx) : iblk1 V c 3 t y = V c main_v4 y := by
  obtain ⟨-, -, -, -, -, -, e0, e1, -⟩ := idx_facts t
  show V c main_v4 (((cfg1.win 3).blk t).view.emb y) = V c main_v4 y
  refine congrArg (V c main_v4) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The second half of W, whole at every point. -/
theorem blk4_eq (c : Dev nD) (t : Fin cfg1.N) (y : S128x128.Idx) : iblk1 V c 4 t y = V c main_v5 y := by
  obtain ⟨-, -, -, -, -, -, -, -, e0, e1, -⟩ := idx_facts t
  show V c main_v5 (((cfg1.win 4).blk t).view.emb y) = V c main_v5 y
  refine congrArg (V c main_v5) (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The bias row, whole at every point. -/
theorem blk5_eq (c : Dev nD) (t : Fin cfg1.N) (y : S1x128.Idx) : iblk1 V c 5 t y = V c main_v6 y := by
  obtain ⟨-, -, -, -, -, -, -, -, -, -, e0, e1, -⟩ := idx_facts t
  show V c main_v6 (((cfg1.win 5).blk t).view.emb y) = V c main_v6 y
  refine congrArg (V c main_v6) (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Point t's block of x holds, at its row p, the row of x that the result's block has there. -/
theorem blk6_eq (c : Dev nD) (t : Fin cfg1.N) (p : Fin 1000) (n k : Fin 128) :
    iblk1 V c 6 t (ix2 p k) = V c main_arg0 (ix2 (((cfg1.win 8).blk t).view.emb (ix2 p n) 0) k) := by
  obtain ⟨-, -, -, -, -, -, -, -, -, -, -, -, e0, e1, -, -, f0, f1⟩ := idx_facts t
  show V c main_arg0 (((cfg1.win 6).blk t).view.emb (ix2 p k)) = _
  refine congrArg (V c main_arg0) (funext fun a => Fin.ext ?_)
  match a with
  | ⟨0, _⟩ => show win1_6.index t (0 : Fin 2) * 1000 + 1 * p.val = win1_8.index t (0 : Fin 2) * 1000 + 1 * p.val; omega
  | ⟨1, _⟩ => show win1_6.index t (1 : Fin 2) * 128 + 1 * k.val = k.val; omega

/-- Point t's block of a likewise. -/
theorem blk7_eq (c : Dev nD) (t : Fin cfg1.N) (p : Fin 1000) (n k : Fin 128) :
    iblk1 V c 7 t (ix2 p k) = V c main_v1_0 (ix2 (((cfg1.win 8).blk t).view.emb (ix2 p n) 0) k) := by
  obtain ⟨-, -, -, -, -, -, -, -, -, -, -, -, -, -, e0, e1, f0, f1⟩ := idx_facts t
  show V c main_v1_0 (((cfg1.win 7).blk t).view.emb (ix2 p k)) = _
  refine congrArg (V c main_v1_0) (funext fun a => Fin.ext ?_)
  match a with
  | ⟨0, _⟩ => show win1_7.index t (0 : Fin 2) * 1000 + 1 * p.val = win1_8.index t (0 : Fin 2) * 1000 + 1 * p.val; omega
  | ⟨1, _⟩ => show win1_7.index t (1 : Fin 2) * 128 + 1 * k.val = k.val; omega

/-- The result's block keeps the output coordinate. -/
theorem emb8_col (t : Fin cfg1.N) (p : Fin 1000) (n : Fin 128) : ((cfg1.win 8).blk t).view.emb (ix2 p n) 1 = n := by
  obtain ⟨-, -, -, -, -, -, -, -, -, -, -, -, -, -, -, -, f0, f1⟩ := idx_facts t
  refine Fin.ext ?_
  show win1_8.index t (1 : Fin 2) * 128 + 1 * n.val = n.val; omega

/-- WHAT POINT t WRITES BACK is block t of the result function. -/
theorem flushed_eq (c : Dev nD) (t : Fin cfg1.N) :
    (dat1 V c).flushed 8 t = ((cfg1.win 8).blk t).view.read (Elt Ideal) (G V c) := by
  show (cfg1.win 8).cut (grid1.coords t) ((dat1 V c).after 8 t) = _
  rw [after1_8]
  funext j
  obtain ⟨p, n, rfl⟩ : ∃ (p : Fin 1000) (n : Fin 128), j = ix2 p n := ⟨j 0, j 1, eq_ix2 j⟩
  show out1_8 (iblk1 V c 0 t) (iblk1 V c 1 t) (iblk1 V c 2 t) (iblk1 V c 3 t) (iblk1 V c 4 t) (iblk1 V c 5 t) (iblk1 V c 6 t) (iblk1 V c 7 t) (ix2 p n)
    = G V c (((cfg1.win 8).blk t).view.emb (ix2 p n))
  refine (out_apply (iblk1 V c 0 t) (iblk1 V c 1 t) (iblk1 V c 2 t) (iblk1 V c 3 t) (iblk1 V c 4 t) (iblk1 V c 5 t) (iblk1 V c 6 t) (iblk1 V c 7 t) p n).trans ?_
  refine (kout_eq_blockOut (iblk1 V c 0 t) (iblk1 V c 1 t) (iblk1 V c 2 t) (iblk1 V c 3 t) (iblk1 V c 4 t) (iblk1 V c 5 t)
    (V c main_arg0) (V c main_v1_0) (iblk1 V c 6 t) (iblk1 V c 7 t) (((cfg1.win 8).blk t).view.emb (ix2 p n) 0) p n
    (fun k => blk6_eq V c t p n k) (fun k => blk7_eq V c t p n k)).trans ?_
  have h0 : iblk1 V c 0 t = V c main_v1_1 := funext (blk0_eq V c t)
  have h1 : iblk1 V c 1 t = V c main_v2 := funext (blk1_eq V c t)
  have h2 : iblk1 V c 2 t = V c main_v3 := funext (blk2_eq V c t)
  have h3 : iblk1 V c 3 t = V c main_v4 := funext (blk3_eq V c t)
  have h4 : iblk1 V c 4 t = V c main_v5 := funext (blk4_eq V c t)
  have h5 : iblk1 V c 5 t = V c main_v6 := funext (blk5_eq V c t)
  rw [h0, h1, h2, h3, h4, h5]
  unfold G
  show _ = Cert.Spec.kout (V c main_v1_1) (V c main_v2) (V c main_v3) (V c main_v4) (V c main_v5) (V c main_v6) (V c main_arg0) (V c main_v1_0)
    (((cfg1.win 8).blk t).view.emb (ix2 p n) 0) (((cfg1.win 8).blk t).view.emb (ix2 p n) 1)
  rw [emb8_col]

/-- THE RESULT ARRAY after the second pass: the result function of the arrays the region finds. -/
theorem final (c : Dev nD) : (dat1 V c).arrAt 8 cfg1.N = G V c :=
  (dat1 V c).arrAt_eq_of_cover 8 (G V c) (fun t _ => flushed_eq V c t) cover

/-- Entry (i, n) of the result array. -/
theorem out_eq (c : Dev nD) (i : Fin 10000) (n : Fin 128) :
    (dat1 V c).arrAt 8 cfg1.N (ix2 i n)
      = Cert.Spec.kout (V c main_v1_1) (V c main_v2) (V c main_v3) (V c main_v4) (V c main_v5) (V c main_v6) (V c main_arg0) (V c main_v1_0) i n := by
  rw [final]
  rfl

end Cert.KernelIdeal.PassTwo

end
-- ==== Proof.PassOneAgg.lean ====
/-
  The first pass's aggregation output, index by index.

  The first pass runs over 25 strips of 400 rows. At every point, whichever of its two control cases the point is in,
  the body stores into the output strip the product of the point's strip of adj (400 × 10000) with the whole of x
  (10000 × 128): entry (r, k) of the strip is the sum over q of adj (400·t + r, q) · x (q, k). The strip is written
  back at every point, strip t onto rows 400·t … 400·t + 399, and the 25 strips cover the 10000 rows. So the array
  ends holding adj · x.
-/
import proofs.«116730_g22660247454026_cont_sun_m_460_4_alg».proof.Proof.Gen.KernelIdeal.Frame
import proofs.«116730_g22660247454026_cont_sun_m_460_4_alg».proof.Proof.PassOnePieces
import proofs.«116730_g22660247454026_cont_sun_m_460_4_alg».proof.Proof.Spec
import Idealize.ShloMosaic.Lib.Pipeline.Value
import Idealize.ShloMosaic.Lib.ValueIdx

noncomputable section

namespace Cert.KernelIdeal.PassOneAgg

open Cert.KernelIdeal Cert.KernelIdeal.Gen Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-- adj · x as an array: entry (i, k). -/
def G (A : Cert.Spec.SA.Idx → EReal) (X : Cert.Spec.SX.Idx → EReal) : (⟨2, ![10000, 128]⟩ : Shape).Idx → EReal :=
  fun j => Cert.Spec.agg A X (j 0) (j 1)

/-- The printed index maps over the grid: x's window stays at block (0, 0); adj's and the output's are at block (t, 0). -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_3.index t (0 : Fin 2) = t.val ∧ win0_3.index t (1 : Fin 2) = 0 :=
  (by decide +kernel : ∀ t : Fin grid0.N, _)

/-- A strip's entry: when row r of the strip of adj is row i of adj and the block of x is x, the payload at (r, k) is
    (adj · x) (i, k). -/
theorem strip_entry (A : Cert.Spec.SA.Idx → EReal) (X : Cert.Spec.SX.Idx → EReal)
    (a : FVec Ideal S400x10000 .f32) (x : FVec Ideal S10000x128 .bf16) (i : Fin 10000) (r : Fin 400) (k : Fin 128)
    (ha : ∀ q : Fin 10000, a (ix2 r q) = A (ix2 i q)) (hx : ∀ q : Fin 10000, x (ix2 q k) = X (ix2 q k)) :
    k0_pay3 (F := Ideal) a x (ix2 r k) = Cert.Spec.agg A X i k := by
  refine (Cert.KernelIdeal.PassOne.pay3_apply a x r k).trans ?_
  unfold Cert.Spec.agg
  exact Finset.sum_congr rfl fun q _ => by rw [ha q, hx q]

/-- What the body leaves in the output strip's buffer at any point: the payload of the point's blocks. -/
theorem strip_eq (c : Dev nD) (t : Fin cfg0.N) :
    (outsAt0 V c t.val t.isLt).1 = k0_pay3 (F := Ideal) (iblk0 V c 1 t) (iblk0 V c 0 t) := by
  by_cases h0 : t.val % 25 = 0
  · rw [outsAt0_A V c t h0]
    dsimp only
    exact Cert.KernelIdeal.PassOne.out_A_3 c (grid0.coords t) (ms0_0 t) (hs0_0 t) (ms0_1 t) (hs0_1 t) (ms0_2 t) (hs0_2 t)
      (ms0_3 t) (hs0_3 t) (ms0_4 t) (hs0_4 t) ((hcond0_0 t).mpr h0) (iblk0 V c 0 t) (iblk0 V c 1 t) (iblk0 V c 2 t)
  · rw [outsAt0_B V c t h0]
    dsimp only
    exact Cert.KernelIdeal.PassOne.out_B_3 c (grid0.coords t) (ms0_0 t) (hs0_0 t) (ms0_1 t) (hs0_1 t) (ms0_2 t) (hs0_2 t)
      (ms0_3 t) (hs0_3 t) (ms0_4 t) (hs0_4 t) (fun h => h0 ((hcond0_0 t).mp h)) (iblk0 V c 0 t) (iblk0 V c 1 t) (iblk0 V c 2 t)
      (outsAt0 V c (t.val - 1) (Nat.lt_of_le_of_lt (Nat.sub_le _ _) t.isLt)).2

/-- Row r of point t's strip of adj is row 400·t + r of adj. -/
theorem adj_blk_apply (c : Dev nD) (t : Fin cfg0.N) (r : Fin 400) (q : Fin 10000) (hi : 400 * t.val + r.val < 10000) :
    iblk0 V c 1 t (ix2 r q) = V c main_arg1 (ix2 ⟨400 * t.val + r.val, hi⟩ q) := by
  obtain ⟨e00, e01, e10, e11, e30, e31⟩ := idx_facts t
  show V c main_arg1 (((cfg0.win 1).blk t).view.emb (ix2 r q)) = V c main_arg1 (ix2 ⟨400 * t.val + r.val, hi⟩ q)
  refine congrArg (V c main_arg1) (funext fun a => Fin.ext ?_)
  match a with
  | ⟨0, _⟩ => show win0_1.index t (0 : Fin 2) * 400 + 1 * r.val = 400 * t.val + r.val; omega
  | ⟨1, _⟩ => show win0_1.index t (1 : Fin 2) * 10000 + 1 * q.val = q.val; omega

/-- Every point's block of x is the whole of x. -/
theorem x_blk_apply (c : Dev nD) (t : Fin cfg0.N) (q : Fin 10000) (k : Fin 128) :
    iblk0 V c 0 t (ix2 q k) = V c main_v0 (ix2 q k) := by
  obtain ⟨e00, e01, e10, e11, e30, e31⟩ := idx_facts t
  show V c main_v0 (((cfg0.win 0).blk t).view.emb (ix2 q k)) = V c main_v0 (ix2 q k)
  refine congrArg (V c main_v0) (funext fun a => Fin.ext ?_)
  match a with
  | ⟨0, _⟩ => show win0_0.index t (0 : Fin 2) * 10000 + 1 * q.val = q.val; omega
  | ⟨1, _⟩ => show win0_0.index t (1 : Fin 2) * 128 + 1 * k.val = k.val; omega

/-- WHAT POINT t WRITES BACK is block t of adj · x of the arrays as the region finds them. -/
theorem flushed_eq (c : Dev nD) (t : Fin cfg0.N) :
    (dat0 V c).flushed 3 t = ((cfg0.win 3).blk t).view.read (Elt Ideal) (G (V c main_arg1) (V c main_v0)) := by
  show (cfg0.win 3).cut (grid0.coords t) ((dat0 V c).after 3 t) = _
  rw [after0_3, strip_eq]
  obtain ⟨e00, e01, e10, e11, e30, e31⟩ := idx_facts t
  have hN : t.val < 25 := lt_of_lt_of_eq t.isLt (show cfg0.N = 25 from N_0)
  funext y
  obtain ⟨r, k, rfl⟩ : ∃ (r : Fin 400) (k : Fin 128), y = ix2 r k := ⟨y 0, y 1, eq_ix2 (n0 := 400) (n1 := 128) y⟩
  have hr : r.val < 400 := r.isLt
  have hi : 400 * t.val + r.val < 10000 := by omega
  show k0_pay3 (F := Ideal) (iblk0 V c 1 t) (iblk0 V c 0 t) (ix2 r k)
    = G (V c main_arg1) (V c main_v0) (((cfg0.win 3).blk t).view.emb (ix2 r k))
  refine (strip_entry (V c main_arg1) (V c main_v0) (iblk0 V c 1 t) (iblk0 V c 0 t) ⟨400 * t.val + r.val, hi⟩
    r k (fun q => adj_blk_apply V c t r q hi) (fun q => x_blk_apply V c t q k)).trans ?_
  unfold G
  refine congrArg₂ (Cert.Spec.agg (V c main_arg1) (V c main_v0)) (Fin.ext ?_) (Fin.ext ?_)
  · show 400 * t.val + r.val = win0_3.index t (0 : Fin 2) * 400 + 1 * r.val; omega
  · show k.val = win0_3.index t (1 : Fin 2) * 128 + 1 * k.val; omega

/-- An index of the array is in point t's block iff each coordinate is in the block's range on its axis. -/
theorem mem_blk (t : Fin cfg0.N) (i : S10000x128.Idx) :
    i ∈ ((cfg0.win 3).blk t).view.set ↔ ∀ a : Fin 2, win0_3.index t a * S400x128.size a ≤ (i a).val ∧ (i a).val < win0_3.index t a * S400x128.size a + S400x128.size a := by
  show i ∈ ((View.whole main_v1_0).slice (win0_3.rect t)).set ↔ _
  rw [View.set_slice_whole, Rect.mem_set_unit]
  exact Iff.rfl

/-- Row i lies in the strip of point i / 400. -/
theorem covered (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  have hN : cfg0.N = 25 := N_0
  let t : Fin cfg0.N := ⟨(i 0).val / 400, by rw [hN]; omega⟩
  obtain ⟨e00, e01, e10, e11, e30, e31⟩ := idx_facts t
  have ht : t.val = (i 0).val / 400 := rfl
  refine ⟨t, flush0_3 t, ?_⟩
  rw [mem_blk]
  intro a
  match a with
  | ⟨0, _⟩ => show win0_3.index t (0 : Fin 2) * 400 ≤ (i 0).val ∧ (i 0).val < win0_3.index t (0 : Fin 2) * 400 + 400; omega
  | ⟨1, _⟩ => show win0_3.index t (1 : Fin 2) * 128 ≤ (i 1).val ∧ (i 1).val < win0_3.index t (1 : Fin 2) * 128 + 128; omega

/-- THE ARRAY after the first pass: adj · x. -/
theorem agg_arr (c : Dev nD) : (dat0 V c).arrAt 3 cfg0.N = G (V c main_arg1) (V c main_v0) :=
  (dat0 V c).arrAt_eq_of_cover 3 (G (V c main_arg1) (V c main_v0)) (fun t _ => flushed_eq V c t) covered

/-- Entry (i, k) of the first pass's aggregation output. -/
theorem agg_eq (c : Dev nD) (i : Fin 10000) (k : Fin 128) :
    (dat0 V c).arrAt 3 cfg0.N (ix2 i k) = Cert.Spec.agg (V c main_arg1) (V c main_v0) i k := by
  rw [agg_arr]
  rfl

end Cert.KernelIdeal.PassOneAgg

end
-- ==== Proof.LibExtReal.lean ====
/-
  Small general facts about float values read as extended reals.

  The words of the float one and of plus infinity denote `1` and `⊤`. A quotient by a nonzero REAL divisor is the
  product with one over the divisor, whatever the dividend (infinities included); at a zero divisor the two differ
  (`0 / 0` against `0 · (1 / 0)`), so the hypothesis is needed. A finite sum of reals read in the extended reals is the
  sum of the readings. An extended real whose absolute value `max x (-x)` is below `⊤` is a real. A comparison word
  that is one says its relation holds (less-than; not-equal).
-/
import Idealize.ShloMosaic.PureOps.Ideal.Laws

noncomputable section

namespace Cert.LibExtReal

open Idealize.ShloMosaic

/-- The word of the float one denotes the real one. -/
theorem ofBits_one : Ideal.ofBits .f32 0x3F800000#32 = 1 := by
  simp [Ideal.ofBits, Ideal.ieee, -EReal.coe_mul]; norm_num

/-- The word of plus infinity denotes the top element. -/
theorem ofBits_inf : Ideal.ofBits .f32 0x7F800000#32 = ⊤ := by simp [Ideal.ofBits, Ideal.ieee]

/-- A quotient by a nonzero real is the product with one over it. -/
theorem div_eq_mul_recip (a d : EReal) (y : ℝ) (hy : y ≠ 0) (hd : d = (y : EReal)) :
    Ideal.div a d = a * Ideal.div (Ideal.ofBits .f32 0x3F800000#32) d := by
  subst hd
  rw [Ideal.div_coe hy, Ideal.div_coe hy, ofBits_one, one_mul]

/-- A finite sum of reals, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real whose absolute value is below the top element is a real. -/
theorem real_of_abs_lt_top (x : EReal) (h : max x (-x) < ⊤) : ∃ y : ℝ, x = (y : EReal) := by
  induction x using EReal.rec with
  | bot => simp at h
  | coe y => exact ⟨y, rfl⟩
  | top => simp at h

/-- A less-than comparison word that is one: the left value is below the right. -/
theorem lt_of_cmp_olt {x y : EReal} (h : Ideal.cmp .olt x y = 1#1) : x < y := by
  unfold Ideal.cmp at h
  by_contra hn
  simp [hn] at h

/-- A not-equal comparison word that is one: the two values differ. -/
theorem ne_of_cmp_une {x y : EReal} (h : Ideal.cmp .une x y = 1#1) : x ≠ y := by
  unfold Ideal.cmp at h
  intro hn
  simp [hn] at h

end Cert.LibExtReal

end
-- ==== Proof.Algebra.lean ====
/-
  The two readings of a normalised column agree on reals, and so do the two results.

  For a column z of N = 10000 reals with sum S and sum of squares Q, the mean is μ = S/N either way, and
  Q/N − μ² = (1/N)·Σ (z − μ)² because Σ (z − μ)² = Q − 2μS + Nμ² = Q − S²/N. That common value v is a mean of
  squares, so v + ε > 0 and (v + ε)^(−1/2) is the reciprocal of the positive real √(v + ε): the kernel's
  (z − μ)·(γ·(v + ε)^(−1/2)) + β and the reference's (z − μ)/√(v + ε)·γ + β are one real. The 256 columns are
  x's 128 followed by a's 128, and a sum over 256 = 128 + 128 columns is the sum of the two halves.
-/
import proofs.«116730_g22660247454026_cont_sun_m_460_4_alg».proof.Proof.Spec
import proofs.«116730_g22660247454026_cont_sun_m_460_4_alg».proof.Proof.LibExtReal

noncomputable section

namespace Cert.Algebra

open Idealize.ShloMosaic Idealize.ShloMosaic.ValueIdx Cert.Spec

/-- Σ (z − μ)² = Q − 2μS + Nμ². -/
theorem sum_sq_dev (z : Fin 10000 → ℝ) (μ : ℝ) :
    ∑ j, (z j - μ) * (z j - μ) = (∑ j, z j * z j) - 2 * μ * (∑ j, z j) + 10000 * μ ^ 2 := by
  have h : ∀ j, (z j - μ) * (z j - μ) = z j * z j - 2 * μ * z j + μ ^ 2 := fun j => by ring
  simp only [h, Finset.sum_add_distrib, Finset.sum_sub_distrib, ← Finset.mul_sum, Finset.sum_const, Finset.card_univ,
    Fintype.card_fin, nsmul_eq_mul]
  push_cast
  ring

/-- The two variances are one real, and it is not negative. -/
theorem var_eq (z : Fin 10000 → ℝ) :
    (∑ j, z j * z j) * (1 / 10000) - ((∑ j, z j) * (1 / 10000)) * ((∑ j, z j) * (1 / 10000))
      = (∑ j, (z j - (∑ j', z j') * (1 / 10000)) * (z j - (∑ j', z j') * (1 / 10000))) * (1 / 10000) := by
  rw [sum_sq_dev]
  ring

theorem var_nonneg (z : Fin 10000 → ℝ) (μ : ℝ) : 0 ≤ (∑ j, (z j - μ) * (z j - μ)) * (1 / 10000) :=
  mul_nonneg (Finset.sum_nonneg fun j _ => mul_self_nonneg _) (by norm_num)

/-- One normalised entry: the kernel's reading from the sums is the reference's. -/
theorem column (z : Fin 10000 → ℝ) (gam bet : ℝ) (i : Fin 10000) :
    ((z i : EReal) - (∑ j, (z j : EReal)) * invN)
        * ((gam : EReal) * Ideal.rsqrt (((∑ j, (z j : EReal) * (z j : EReal)) * invN
            - ((∑ j, (z j : EReal)) * invN) * ((∑ j, (z j : EReal)) * invN)) + eps)) + (bet : EReal)
      = Ideal.div ((z i : EReal) - Ideal.div (∑ j, (z j : EReal)) nRows)
          (Ideal.sqrt (Ideal.div (∑ j, ((z j : EReal) - Ideal.div (∑ j', (z j' : EReal)) nRows)
              * ((z j : EReal) - Ideal.div (∑ j', (z j' : EReal)) nRows)) nRows + eps)) * (gam : EReal) + (bet : EReal) := by
  obtain ⟨e, he, hE⟩ := eps_pos
  have hN : (10000 : ℝ) ≠ 0 := by norm_num
  rw [hE, nRows_eq]
  unfold invN
  simp only [Ideal.div_coe hN, ← EReal.coe_mul, ← Cert.LibExtReal.coe_sum, ← EReal.coe_sub, ← EReal.coe_add]
  rw [var_eq z]
  have hv : 0 < (∑ j, (z j - (∑ j', z j') * (1 / 10000)) * (z j - (∑ j', z j') * (1 / 10000))) * (1 / 10000) + e :=
    add_pos_of_nonneg_of_pos (var_nonneg z _) he
  generalize (∑ j, (z j - (∑ j', z j') * (1 / 10000)) * (z j - (∑ j', z j') * (1 / 10000))) * (1 / 10000) + e = w at hv ⊢
  rw [Ideal.rsqrt_coe, Ideal.sqrt_coe, if_neg (not_lt.mpr hv.le), if_neg hv.ne', if_neg (not_lt.mpr hv.le)]
  have hs : Real.sqrt w ≠ 0 := (Real.sqrt_pos.mpr hv).ne'
  rw [Ideal.div_coe hs]
  simp only [← EReal.coe_mul, ← EReal.coe_add]
  congr 1
  ring

/-! ## The 256 columns as two halves -/

/-- A sum over the 256 columns is the sum over x's 128 plus the sum over a's 128. -/
theorem sum_halves (f : Fin 256 → EReal) :
    ∑ k' : Fin 256, f k' = ∑ k : Fin 128, f ⟨k.val, by omega⟩ + ∑ k : Fin 128, f ⟨128 + k.val, by omega⟩ :=
  Fin.sum_univ_add (a := 128) (b := 128) f

/-- A column of z among the first 128 is x's. -/
theorem xcat_left (x : SX.Idx → EReal) (a : Fin 10000 → Fin 128 → EReal) (i : Fin 10000) (k : Fin 128)
    (h : k.val < 256) : xcat x a i ⟨k.val, h⟩ = x (ix2 i k) := by
  unfold xcat
  rw [dif_pos (show (⟨k.val, h⟩ : Fin 256).val < 128 from k.isLt)]

/-- A column of z among the last 128 is a's. -/
theorem xcat_right (x : SX.Idx → EReal) (a : Fin 10000 → Fin 128 → EReal) (i : Fin 10000) (k : Fin 128)
    (h : 128 + k.val < 256) : xcat x a i ⟨128 + k.val, h⟩ = a i k := by
  unfold xcat
  rw [dif_neg (show ¬ (⟨128 + k.val, h⟩ : Fin 256).val < 128 from by simp)]
  congr 1
  exact Fin.ext (by simp)

/-! ## The two results -/

section

variable (x : SX.Idx → EReal) (adj : SA.Idx → EReal) (g be : SV.Idx → EReal) (W : SW.Idx → EReal) (b : SB.Idx → EReal)
  (st : SS.Idx → EReal) (g2 b2 : SG.Idx → EReal) (w1 w2 : SH.Idx → EReal) (br : SR.Idx → EReal) (a : SX.Idx → EReal)

/-- On finite inputs the aggregation is a real. -/
theorem agg_real (hx : ∀ j, ∃ y : ℝ, x j = (y : EReal)) (hadj : ∀ j, ∃ y : ℝ, adj j = (y : EReal)) (i : Fin 10000)
    (k : Fin 128) : ∃ y : ℝ, agg adj x i k = (y : EReal) := by
  choose X hX using hx
  choose A hA using hadj
  refine ⟨∑ q : Fin 10000, A (ix2 i q) * X (ix2 q k), ?_⟩
  unfold agg
  simp only [hX, hA, ← EReal.coe_mul, ← Cert.LibExtReal.coe_sum]

/-- x's half: the kernel's normalised entry from the sums is the reference's at the same column. -/
theorem half_x (hx : ∀ j, ∃ y : ℝ, x j = (y : EReal)) (hg : ∀ j, ∃ y : ℝ, g j = (y : EReal))
    (hbe : ∀ j, ∃ y : ℝ, be j = (y : EReal))
    (hst0 : ∀ k : Fin 128, st (ix2 0 k) = ∑ i : Fin 10000, x (ix2 i k))
    (hst1 : ∀ k : Fin 128, st (ix2 1 k) = ∑ i : Fin 10000, x (ix2 i k) * x (ix2 i k))
    (hg2 : ∀ k : Fin 128, g2 (ix2 0 k) = g (ix1 ⟨k.val, by omega⟩))
    (hb2 : ∀ k : Fin 128, b2 (ix2 0 k) = be (ix1 ⟨k.val, by omega⟩))
    (i : Fin 10000) (k : Fin 128) :
    kh1 st g2 b2 x i k = rxn (xcat x (agg adj x)) g be i ⟨k.val, by omega⟩ := by
  choose X hX using hx
  obtain ⟨G, hG⟩ := hg (ix1 ⟨k.val, by omega⟩)
  obtain ⟨B, hB⟩ := hbe (ix1 ⟨k.val, by omega⟩)
  unfold kh1 kscale kvar kmean rxn rvar rmean
  simp only [xcat_left, hst0, hst1, hg2, hb2, hG, hB, hX]
  exact column (fun j => X (ix2 j k)) G B i

/-- a's half likewise. -/
theorem half_a (hx : ∀ j, ∃ y : ℝ, x j = (y : EReal)) (hadj : ∀ j, ∃ y : ℝ, adj j = (y : EReal))
    (hg : ∀ j, ∃ y : ℝ, g j = (y : EReal)) (hbe : ∀ j, ∃ y : ℝ, be j = (y : EReal))
    (hst2 : ∀ k : Fin 128, st (ix2 2 k) = ∑ i : Fin 10000, agg adj x i k)
    (hst3 : ∀ k : Fin 128, st (ix2 3 k) = ∑ i : Fin 10000, agg adj x i k * agg adj x i k)
    (ha : ∀ (i : Fin 10000) (k : Fin 128), a (ix2 i k) = agg adj x i k)
    (hg2 : ∀ k : Fin 128, g2 (ix2 1 k) = g (ix1 ⟨128 + k.val, by omega⟩))
    (hb2 : ∀ k : Fin 128, b2 (ix2 1 k) = be (ix1 ⟨128 + k.val, by omega⟩))
    (i : Fin 10000) (k : Fin 128) :
    kh2 st g2 b2 a i k = rxn (xcat x (agg adj x)) g be i ⟨128 + k.val, by omega⟩ := by
  choose A hA using agg_real x adj hx hadj
  obtain ⟨G, hG⟩ := hg (ix1 ⟨128 + k.val, by omega⟩)
  obtain ⟨B, hB⟩ := hbe (ix1 ⟨128 + k.val, by omega⟩)
  unfold kh2 kscale kvar kmean rxn rvar rmean
  simp only [xcat_right, hst2, hst3, ha, hg2, hb2, hG, hB, hA]
  exact column (fun j => A j k) G B i

/-- On finite inputs the kernel's second pass, fed the column sums, the aggregation and the re-laid
    parameters, is the reference. -/
theorem kout_eq_rout (hx : ∀ j, ∃ y : ℝ, x j = (y : EReal)) (hadj : ∀ j, ∃ y : ℝ, adj j = (y : EReal))
    (hg : ∀ j, ∃ y : ℝ, g j = (y : EReal)) (hbe : ∀ j, ∃ y : ℝ, be j = (y : EReal))
    (hst0 : ∀ k : Fin 128, st (ix2 0 k) = ∑ i : Fin 10000, x (ix2 i k))
    (hst1 : ∀ k : Fin 128, st (ix2 1 k) = ∑ i : Fin 10000, x (ix2 i k) * x (ix2 i k))
    (hst2 : ∀ k : Fin 128, st (ix2 2 k) = ∑ i : Fin 10000, agg adj x i k)
    (hst3 : ∀ k : Fin 128, st (ix2 3 k) = ∑ i : Fin 10000, agg adj x i k * agg adj x i k)
    (ha : ∀ (i : Fin 10000) (k : Fin 128), a (ix2 i k) = agg adj x i k)
    (hg20 : ∀ k : Fin 128, g2 (ix2 0 k) = g (ix1 ⟨k.val, by omega⟩))
    (hg21 : ∀ k : Fin 128, g2 (ix2 1 k) = g (ix1 ⟨128 + k.val, by omega⟩))
    (hb20 : ∀ k : Fin 128, b2 (ix2 0 k) = be (ix1 ⟨k.val, by omega⟩))
    (hb21 : ∀ k : Fin 128, b2 (ix2 1 k) = be (ix1 ⟨128 + k.val, by omega⟩))
    (hw1 : ∀ n k : Fin 128, w1 (ix2 n k) = W (ix2 n ⟨k.val, by omega⟩))
    (hw2 : ∀ n k : Fin 128, w2 (ix2 n k) = W (ix2 n ⟨128 + k.val, by omega⟩))
    (hbr : ∀ n : Fin 128, br (ix2 0 n) = b (ix1 n))
    (i : Fin 10000) (n : Fin 128) :
    kout st g2 b2 w1 w2 br x a i n = rout x adj g be W b i n := by
  unfold kout rout
  rw [sum_halves, hbr]
  congr 2
  · exact Finset.sum_congr rfl fun k _ => by
      rw [half_x x adj g be st g2 b2 hx hg hbe hst0 hst1 hg20 hb20 i k, hw1]
  · exact Finset.sum_congr rfl fun k _ => by
      rw [half_a x adj g be st g2 b2 a hx hadj hg hbe hst2 hst3 ha hg21 hb21 i k, hw2]

end

end Cert.Algebra

end
-- ==== Proof.KValue.lean ====
/-
  The idealized kernel's result as a function of the argument arrays.

  The second pass's output window ends at `kout` of what its windows found; those are the first pass's column
  sums and aggregation, x, and the host's re-laid γ, β, W, b. Read back to the launch memory, and with the first
  pass's sums and aggregation in closed form, that is the reference's function on finite inputs.
-/
import proofs.«116730_g22660247454026_cont_sun_m_460_4_alg».proof.Proof.KRun
import proofs.«116730_g22660247454026_cont_sun_m_460_4_alg».proof.Proof.KFold
import proofs.«116730_g22660247454026_cont_sun_m_460_4_alg».proof.Proof.PassOne
import proofs.«116730_g22660247454026_cont_sun_m_460_4_alg».proof.Proof.PassTwo
import proofs.«116730_g22660247454026_cont_sun_m_460_4_alg».proof.Proof.PassOneAgg
import proofs.«116730_g22660247454026_cont_sun_m_460_4_alg».proof.Proof.Algebra

noncomputable section

namespace Cert.KernelIdeal.KValue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- On finite inputs the result buffer ends at the reference's function of the argument arrays. -/
theorem result_eq (c : Dev nD)
    (hx : ∀ j, ∃ y : ℝ, m ((c : Thread nD τ).loc main_arg0) j = (y : EReal))
    (hadj : ∀ j, ∃ y : ℝ, m ((c : Thread nD τ).loc main_arg1) j = (y : EReal))
    (hg : ∀ j, ∃ y : ℝ, m ((c : Thread nD τ).loc main_arg2) j = (y : EReal))
    (hbe : ∀ j, ∃ y : ℝ, m ((c : Thread nD τ).loc main_arg3) j = (y : EReal))
    (i : Fin 10000) (n : Fin 128) :
    W4 m ρ c (Proc.devRef .tc main_v7) (ix2 i n)
      = Cert.Spec.rout (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) i n := by
  rw [Cert.KernelIdeal.KRun.W4_result, Cert.KernelIdeal.PassTwo.out_eq (V3 m ρ) c i n]
  rw [KFold.V3_sums, KFold.V3_v2, KFold.V3_v3, KFold.V3_v4, KFold.V3_v5, KFold.V3_v6, KFold.V3_arg0, KFold.V3_agg]
  have hs := fun k => Cert.KernelIdeal.PassOne.sums_eq (V1 m ρ) c k
  have ha := fun i k => Cert.KernelIdeal.PassOneAgg.agg_eq (V1 m ρ) c i k
  rw [KFold.V1_arg0, KFold.V1_arg1, KFold.V1_v0] at hs
  rw [KFold.V1_arg1, KFold.V1_v0] at ha
  exact Cert.Algebra.kout_eq_rout _ _ _ _ _ _ _ _ _ _ _ _ _ hx hadj hg hbe
    (fun k => (hs k).1) (fun k => (hs k).2.1) (fun k => (hs k).2.2.1) (fun k => (hs k).2.2.2) ha
    (fun k => KFold.rows_row0 _ _ k) (fun k => KFold.rows_row1 _ _ k)
    (fun k => KFold.rows_row0 _ _ k) (fun k => KFold.rows_row1 _ _ k)
    (fun n k => KFold.cols_left _ _ n k) (fun n k => KFold.cols_right _ _ n k)
    (fun n => KFold.row_of_vec _ _ n) i n

end Cert.KernelIdeal.KValue

end
-- ==== Proof.RefRun.lean ====
/-
  The reference program's run, read back.

  The reference is a straight line of host operations: @main's own, with the operations of the outlined variance
  function (and, inside it, of the outlined selection) listed at the call site over the call's buffers. Every weakly
  fair execution terminates with the result buffer at the operations' composed term of the six argument arrays and
  the arguments unchanged. The composed term is named stage by stage (`tAgg` … `tOut`) so that the value module can
  read each stage at an index.
-/
import proofs.«116730_g22660247454026_cont_sun_m_460_4_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The contents of a tensor value of shape `S` with f32 entries. -/
abbrev T (S : Shape) : Type := (⟨S, .f32⟩ : BufTy).Contents (Elt F)

/-- @main's operations in order, the call unfolded: the variance function's nineteen and, at its end, the selection's
    three, over the call's buffers. -/
abbrev ops : List (HloOp τ sig (Elt F)) :=
  [ binary main_arg1 main_arg0 main_v0 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_arg0 main_v0 main_v1 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    nullary main_cst (constant S_ .f32 0x00000000#32),
    binary main_v1 main_cst main_v2 ((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)),
    nullary main_cst_0 (constant S_ .f32 0x461C4000#32),
    unary main_cst_0 main_v3 (broadcastInDim S256 ![] bcast_S_S256 : (⟨S_, .f32⟩ : BufTy).Contents (Elt F) → (⟨S256, .f32⟩ : BufTy).Contents (Elt F)),
    binary main_v2 main_v3 main_v4 (Host.divf : (⟨S256, .f32⟩ : BufTy).Contents (Elt F) → (⟨S256, .f32⟩ : BufTy).Contents (Elt F) → (⟨S256, .f32⟩ : BufTy).Contents (Elt F)),
    nullary main_c (constantI S_ 32 0#32),
    TRef.nullary main_call0.cst (constant S_ .f32 0x00000000#32),
    TRef.binary (.of main_v1) main_call0.cst main_call0.v0 (fun x v => Host.reduceAdd x v reducesTo_S10000x256_S256_d0 h_S_),
    TRef.unary main_call0.v0 main_call0.v1 (broadcastInDim S1x256 ![1] bcast_S256_S1x256_1),
    TRef.nullary main_call0.cst_0 (constant S_ .f32 0x461C4000#32),
    TRef.unary main_call0.cst_0 main_call0.v2 (broadcastInDim S1x256 ![] bcast_S_S1x256),
    TRef.binary main_call0.v1 main_call0.v2 main_call0.v3 Host.divf,
    TRef.unary main_call0.v3 main_call0.v4 (broadcastInDim S10000x256 ![0, 1] bcast_S1x256_S10000x256_0_1),
    TRef.binary (.of main_v1) main_call0.v4 main_call0.v5 subf,
    TRef.binary main_call0.v5 main_call0.v5 main_call0.v6 mulf,
    TRef.unary (.of main_c) main_call0.v7 (sitofp .f32),
    TRef.nullary main_call0.cst_1 (constant S_ .f32 0x461C4000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S10000x256_S256_d0 h_S_),
    TRef.unary main_call0.v8 main_call0.v10 (broadcastInDim S256 ![] bcast_S_S256),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S256 ![] bcast_S_S256),
    TRef.ternary main_call0.v12 main_call0.v11 main_call0.call0.v1 main_call0.call0.v2 (fun p a b => select (broadcastInDim S256 ![] bcast_S_S256 p) a b),
    unary main_v4 main_v6 (broadcastInDim S1x256 ![1] bcast_S256_S1x256_1 : (⟨S256, .f32⟩ : BufTy).Contents (Elt F) → (⟨S1x256, .f32⟩ : BufTy).Contents (Elt F)),
    unary main_v6 main_v7 (broadcastInDim S10000x256 ![0, 1] bcast_S1x256_S10000x256_0_1 : (⟨S1x256, .f32⟩ : BufTy).Contents (Elt F) → (⟨S10000x256, .f32⟩ : BufTy).Contents (Elt F)),
    binary main_v1 main_v7 main_v8 (subf : (⟨S10000x256, .f32⟩ : BufTy).Contents (Elt F) → (⟨S10000x256, .f32⟩ : BufTy).Contents (Elt F) → (⟨S10000x256, .f32⟩ : BufTy).Contents (Elt F)),
    nullary main_cst_1 (constant S_ .f32 0x3727C5AC#32),
    unary main_cst_1 main_v9 (broadcastInDim S256 ![] bcast_S_S256 : (⟨S_, .f32⟩ : BufTy).Contents (Elt F) → (⟨S256, .f32⟩ : BufTy).Contents (Elt F)),
    binary main_v5 main_v9 main_v10 (addf : (⟨S256, .f32⟩ : BufTy).Contents (Elt F) → (⟨S256, .f32⟩ : BufTy).Contents (Elt F) → (⟨S256, .f32⟩ : BufTy).Contents (Elt F)),
    unary main_v10 main_v11 (Host.sqrt : (⟨S256, .f32⟩ : BufTy).Contents (Elt F) → (⟨S256, .f32⟩ : BufTy).Contents (Elt F)),
    unary main_v11 main_v12 (broadcastInDim S1x256 ![1] bcast_S256_S1x256_1 : (⟨S256, .f32⟩ : BufTy).Contents (Elt F) → (⟨S1x256, .f32⟩ : BufTy).Contents (Elt F)),
    unary main_v12 main_v13 (broadcastInDim S10000x256 ![0, 1] bcast_S1x256_S10000x256_0_1 : (⟨S1x256, .f32⟩ : BufTy).Contents (Elt F) → (⟨S10000x256, .f32⟩ : BufTy).Contents (Elt F)),
    binary main_v8 main_v13 main_v14 (Host.divf : (⟨S10000x256, .f32⟩ : BufTy).Contents (Elt F) → (⟨S10000x256, .f32⟩ : BufTy).Contents (Elt F) → (⟨S10000x256, .f32⟩ : BufTy).Contents (Elt F)),
    unary main_arg2 main_v15 (broadcastInDim S1x256 ![1] bcast_S256_S1x256_1 : (⟨S256, .f32⟩ : BufTy).Contents (Elt F) → (⟨S1x256, .f32⟩ : BufTy).Contents (Elt F)),
    unary main_v15 main_v16 (broadcastInDim S10000x256 ![0, 1] bcast_S1x256_S10000x256_0_1 : (⟨S1x256, .f32⟩ : BufTy).Contents (Elt F) → (⟨S10000x256, .f32⟩ : BufTy).Contents (Elt F)),
    binary main_v14 main_v16 main_v17 (mulf : (⟨S10000x256, .f32⟩ : BufTy).Contents (Elt F) → (⟨S10000x256, .f32⟩ : BufTy).Contents (Elt F) → (⟨S10000x256, .f32⟩ : BufTy).Contents (Elt F)),
    unary main_arg3 main_v18 (broadcastInDim S1x256 ![1] bcast_S256_S1x256_1 : (⟨S256, .f32⟩ : BufTy).Contents (Elt F) → (⟨S1x256, .f32⟩ : BufTy).Contents (Elt F)),
    unary main_v18 main_v19 (broadcastInDim S10000x256 ![0, 1] bcast_S1x256_S10000x256_0_1 : (⟨S1x256, .f32⟩ : BufTy).Contents (Elt F) → (⟨S10000x256, .f32⟩ : BufTy).Contents (Elt F)),
    binary main_v17 main_v19 main_v20 (addf : (⟨S10000x256, .f32⟩ : BufTy).Contents (Elt F) → (⟨S10000x256, .f32⟩ : BufTy).Contents (Elt F) → (⟨S10000x256, .f32⟩ : BufTy).Contents (Elt F)),
    unary main_arg4 main_v21 ((transpose S256x128 [1, 0] · transposes_S128x256_S256x128_1_0) : (⟨S128x256, .f32⟩ : BufTy).Contents (Elt F) → (⟨S256x128, .f32⟩ : BufTy).Contents (Elt F)),
    binary main_v20 main_v21 main_v22 ((fun l r => Host.dotGeneral dot_S10000x256_S256x128_S10000x128_1_0_0_1_n_n none l r) : (⟨S10000x256, .f32⟩ : BufTy).Contents (Elt F) → (⟨S256x128, .f32⟩ : BufTy).Contents (Elt F) → (⟨S10000x128, .f32⟩ : BufTy).Contents (Elt F)),
    unary main_arg5 main_v23 (broadcastInDim S1x128 ![1] bcast_S128_S1x128_1 : (⟨S128, .f32⟩ : BufTy).Contents (Elt F) → (⟨S1x128, .f32⟩ : BufTy).Contents (Elt F)),
    unary main_v23 main_v24 (broadcastInDim S10000x128 ![0, 1] bcast_S1x128_S10000x128_0_1 : (⟨S1x128, .f32⟩ : BufTy).Contents (Elt F) → (⟨S10000x128, .f32⟩ : BufTy).Contents (Elt F)),
    binary main_v22 main_v24 main_v25 (addf : (⟨S10000x128, .f32⟩ : BufTy).Contents (Elt F) → (⟨S10000x128, .f32⟩ : BufTy).Contents (Elt F) → (⟨S10000x128, .f32⟩ : BufTy).Contents (Elt F)) ]

-- fifty-one binds re-associated: the rewrite under the chain recurses once per statement
set_option maxRecDepth 2048 in
/-- @main is that straight line: the two functions' definitions unfolded at their calls and the records at their fields,
    both sides are one chain of steps once sequencing is re-associated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., nullary_bufs_sub .., binary_bufs_sub .., nullary_bufs_sub .., unary_bufs_sub ..,
    binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., unary_bufs_sub .., binary_bufs_sub ..,
    unary_bufs_sub .., unary_bufs_sub .., binary_bufs_sub ..⟩

/-! ## The composed term, stage by stage -/

section Terms

/-- a = adj · x. -/
def tAgg (x : T (F := F) S10000x128) (adj : T (F := F) S10000x10000) : T (F := F) S10000x128 :=
  Host.dotGeneral dot_S10000x10000_S10000x128_S10000x128_1_0_0_1_n_n none adj x

/-- z = [x | a]. -/
def tCat (x : T (F := F) S10000x128) (adj : T (F := F) S10000x10000) : T (F := F) S10000x256 :=
  concatenate S10000x256 1 [⟨S10000x128, x⟩, ⟨S10000x128, tAgg x adj⟩] concatenates_S10000x128_S10000x128_S10000x256_d1

/-- The column sums of an array of z's shape, from the zero word. -/
def tColSum (z : T (F := F) S10000x256) : T (F := F) S256 :=
  Host.reduceAdd z (constant S_ .f32 0x00000000#32) reducesTo_S10000x256_S256_d0 h_S_

/-- The column means as @main takes them: the sums over the row count broadcast from a scalar. -/
def tMean (z : T (F := F) S10000x256) : T (F := F) S256 :=
  Host.divf (tColSum z) (broadcastInDim S256 ![] bcast_S_S256 (constant S_ .f32 0x461C4000#32))

/-- The column means as the variance function takes them: kept as a row. -/
def tMeanRow (z : T (F := F) S10000x256) : T (F := F) S1x256 :=
  Host.divf (broadcastInDim S1x256 ![1] bcast_S256_S1x256_1 (tColSum z))
    (broadcastInDim S1x256 ![] bcast_S_S1x256 (constant S_ .f32 0x461C4000#32))

/-- The deviations from the column means inside the variance function. -/
def tDev (z : T (F := F) S10000x256) : T (F := F) S10000x256 :=
  subf z (broadcastInDim S10000x256 ![0, 1] bcast_S1x256_S10000x256_0_1 (tMeanRow z))

/-- The variance function's normaliser: the row count less the (zero) correction. -/
def tNorm : T (F := F) S_ :=
  subf (constant S_ .f32 0x461C4000#32) (sitofp .f32 (constantI S_ 32 0#32))

/-- The column variances: the mean of the squared deviations where the normaliser is positive. -/
def tVar (z : T (F := F) S10000x256) : T (F := F) S256 :=
  select (broadcastInDim S256 ![] bcast_S_S256 (cmpf .ogt (tNorm (F := F)) (constant S_ .f32 0x00000000#32)))
    (Host.divf (Host.reduceAdd (mulf (tDev z) (tDev z)) (constant S_ .f32 0x00000000#32) reducesTo_S10000x256_S256_d0 h_S_)
      (broadcastInDim S256 ![] bcast_S_S256 (tNorm (F := F))))
    (broadcastInDim S256 ![] bcast_S_S256 (id (constant S_ .f32 0x7FC00000#32)))

/-- z less its column means, as @main takes it. -/
def tCentered (z : T (F := F) S10000x256) : T (F := F) S10000x256 :=
  subf z (broadcastInDim S10000x256 ![0, 1] bcast_S1x256_S10000x256_0_1 (broadcastInDim S1x256 ![1] bcast_S256_S1x256_1 (tMean z)))

/-- The column standard deviations: the root of the variance plus ε. -/
def tStd (z : T (F := F) S10000x256) : T (F := F) S256 :=
  Host.sqrt (addf (tVar z) (broadcastInDim S256 ![] bcast_S_S256 (constant S_ .f32 0x3727C5AC#32)))

/-- A vector over z's columns laid along every row. -/
def tRows (v : T (F := F) S256) : T (F := F) S10000x256 :=
  broadcastInDim S10000x256 ![0, 1] bcast_S1x256_S10000x256_0_1 (broadcastInDim S1x256 ![1] bcast_S256_S1x256_1 v)

/-- The normalised z, scaled by γ and shifted by β. -/
def tXn (z : T (F := F) S10000x256) (g be : T (F := F) S256) : T (F := F) S10000x256 :=
  addf (mulf (Host.divf (tCentered z) (tRows (tStd z))) (tRows g)) (tRows be)

/-- The result: the normalised z against Wᵀ, plus the bias along every row. -/
def tOut (x : T (F := F) S10000x128) (adj : T (F := F) S10000x10000) (g be : T (F := F) S256) (W : T (F := F) S128x256)
    (b : T (F := F) S128) : T (F := F) S10000x128 :=
  addf (Host.dotGeneral dot_S10000x256_S256x128_S10000x128_1_0_0_1_n_n none (tXn (tCat x adj) g be)
      (transpose S256x128 [1, 0] W transposes_S128x256_S256x128_1_0))
    (broadcastInDim S10000x128 ![0, 1] bcast_S1x128_S10000x128_0_1 (broadcastInDim S1x128 ![1] bcast_S128_S1x128_1 b))

end Terms

set_option maxRecDepth 8192 in
/-- What the result buffer holds after the operations, from any contents: the composed term of the argument buffers'
    contents. The fold is unrolled, each operation's result read at its own buffer and passed over elsewhere. -/
theorem out_eq (V : Valuation τ sig (Elt F)) :
    after ops V (main_v25 : DevRef τ sig)
      = tOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

theorem arg0_eq (V : Valuation τ sig (Elt F)) : after ops V (main_arg0 : DevRef τ sig) = V (main_arg0 : DevRef τ sig) := by
  after_results_simp <;> rfl
theorem arg1_eq (V : Valuation τ sig (Elt F)) : after ops V (main_arg1 : DevRef τ sig) = V (main_arg1 : DevRef τ sig) := by
  after_results_simp <;> rfl
theorem arg2_eq (V : Valuation τ sig (Elt F)) : after ops V (main_arg2 : DevRef τ sig) = V (main_arg2 : DevRef τ sig) := by
  after_results_simp <;> rfl
theorem arg3_eq (V : Valuation τ sig (Elt F)) : after ops V (main_arg3 : DevRef τ sig) = V (main_arg3 : DevRef τ sig) := by
  after_results_simp <;> rfl
theorem arg4_eq (V : Valuation τ sig (Elt F)) : after ops V (main_arg4 : DevRef τ sig) = V (main_arg4 : DevRef τ sig) := by
  after_results_simp <;> rfl
theorem arg5_eq (V : Valuation τ sig (Elt F)) : after ops V (main_arg5 : DevRef τ sig) = V (main_arg5 : DevRef τ sig) := by
  after_results_simp <;> rfl

/-- On every device, for any float values, from any memory with zero counters: every weakly fair execution of @main
    terminates with the result buffer at the composed term of the arguments' launch contents and the arguments
    unchanged. -/
theorem run0 (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25)
          = tOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v25).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.RefValue

end
-- ==== Proof.RefValue.lean ====
/-
  The reference's composed term read at an index.

  Each stage of the composed term of RefRun.lean is read at an index over the extended reals: the aggregation and the
  final product as sums over the contracted axis, the concatenation by the column's side, the three reductions over the
  rows as sums, the broadcasts at the operand's index, the pointwise operations entry by entry. The variance function's
  normaliser is the row count less zero, which is positive, so its selection takes the quotient. Put together, the
  result at row i, output n is `Cert.Spec.rout` there; with the run of RefRun.lean this is the reference's half of the
  certificate.
-/
import proofs.«116730_g22660247454026_cont_sun_m_460_4_alg».proof.Proof.RefRun
import proofs.«116730_g22660247454026_cont_sun_m_460_4_alg».proof.Proof.Spec
import proofs.«116730_g22660247454026_cont_sun_m_460_4_alg».proof.Proof.LibDense
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx Idealize.SL.Sem

/-- An f32 array of shape `S` over the extended reals. -/
abbrev A (S : Shape) : Type := FVec Ideal S .f32

/-- An array of z's shape as a function of row and column. -/
abbrev rc (z : A S10000x256) : Fin 10000 → Fin 256 → EReal := fun i k => z (ix2 i k)

/-! ## The aggregation and the concatenation -/

theorem tAgg_apply (x : A S10000x128) (adj : A S10000x10000) (i : Fin 10000) (k : Fin 128) :
    tAgg (F := Ideal) x adj (ix2 i k) = Cert.Spec.agg adj x i k := by
  unfold tAgg Cert.Spec.agg
  simp only [Host.dotGeneral]
  rw [Ideal.dotGeneral_apply]
  exact Cert.LibDense.sum_contr_plain _ rfl rfl (ix2 i k) (fun _ => rfl) (fun _ => rfl) (fun _ => rfl) (fun _ => rfl) adj x

theorem tCat_apply (x : A S10000x128) (adj : A S10000x10000) (i : Fin 10000) (k : Fin 256) :
    tCat (F := Ideal) x adj (ix2 i k) = Cert.Spec.xcat x (Cert.Spec.agg adj x) i k := by
  unfold tCat Cert.Spec.xcat
  by_cases h : k.val < 128
  · rw [dif_pos h]
    exact concatenate_pair_apply_left 1 x _ _ (ix2 i k) rfl (ix2 i ⟨k.val, h⟩) (fun b => by
      match b with
      | ⟨0, _⟩ => rfl
      | ⟨1, _⟩ => rfl)
  · rw [dif_neg h]
    have hk := k.isLt
    refine (concatenate_pair_apply_right 1 x (tAgg (F := Ideal) x adj) _ (ix2 i k) rfl rfl (ix2 i ⟨k.val - 128, by omega⟩) (fun b hb => by
      match b with
      | ⟨0, _⟩ => rfl
      | ⟨1, _⟩ => exact absurd rfl hb) ?_).trans (tAgg_apply x adj i _)
    show k.val - 128 + 128 = k.val
    omega

/-! ## The reductions over the rows -/

/-- A column sum of the reference is the sum over the rows. -/
theorem colSum_apply (z : A S10000x256) (k : Fin 256) :
    (Host.reduceAdd z (constant (F := Ideal) S_ .f32 0x00000000#32) reducesTo_S10000x256_S256_d0 h_S_ : A S256) (ix1 k)
      = ∑ i : Fin 10000, z (ix2 i k) := by
  rw [hostReduceAdd_apply,
    Ideal.hostReduceAdd_single reducesTo_S10000x256_S256_d0 (by decide : S10000x256.Reduces [0] S256),
    constant_apply, Cert.Spec.zero_word, zero_add]
  refine Finset.sum_congr rfl fun i _ => congrArg z (funext fun a => ?_)
  match a with
  | ⟨0, _⟩ => rfl
  | ⟨1, _⟩ => rfl

theorem tColSum_apply (z : A S10000x256) (k : Fin 256) :
    tColSum (F := Ideal) z (ix1 k) = ∑ i : Fin 10000, z (ix2 i k) := colSum_apply z k

/-- The scalar of the row count, broadcast to any shape, read anywhere. -/
theorem nRows_bcast {S : Shape} (h : S_.BroadcastsInDim S ![]) (j : S.Idx) :
    broadcastInDim S ![] h (constant (F := Ideal) S_ .f32 0x461C4000#32) j = Cert.Spec.nRows :=
  broadcastInDim_scalar_apply h _ j

theorem tMean_apply (z : A S10000x256) (k : Fin 256) :
    tMean (F := Ideal) z (ix1 k) = Cert.Spec.rmean (rc z) k := by
  unfold tMean Cert.Spec.rmean
  rw [hostDivf_apply, tColSum_apply, nRows_bcast]

/-- A vector laid as a row, read at (u, k). -/
theorem row_apply (v : A S256) (u : Fin 1) (k : Fin 256) :
    (broadcastInDim S1x256 ![1] bcast_S256_S1x256_1 v : A S1x256) (ix2 u k) = v (ix1 k) :=
  broadcastInDim_apply _ _ v (ix2 u k) (ix1 k) fun a => by
    match a with
    | ⟨0, _⟩ => rfl

/-- A row laid along every row, read at (i, k). -/
theorem rows_apply (w : A S1x256) (i : Fin 10000) (k : Fin 256) :
    (broadcastInDim S10000x256 ![0, 1] bcast_S1x256_S10000x256_0_1 w : A S10000x256) (ix2 i k) = w (ix2 0 k) :=
  broadcastInDim_apply _ _ w (ix2 i k) (ix2 0 k) fun a => by
    match a with
    | ⟨0, _⟩ => rfl
    | ⟨1, _⟩ => rfl

theorem tRows_apply (v : A S256) (i : Fin 10000) (k : Fin 256) : tRows (F := Ideal) v (ix2 i k) = v (ix1 k) := by
  unfold tRows
  rw [rows_apply, row_apply]

theorem tMeanRow_apply (z : A S10000x256) (k : Fin 256) :
    tMeanRow (F := Ideal) z (ix2 0 k) = Cert.Spec.rmean (rc z) k := by
  unfold tMeanRow Cert.Spec.rmean
  rw [hostDivf_apply, row_apply, tColSum_apply, nRows_bcast]

theorem tDev_apply (z : A S10000x256) (i : Fin 10000) (k : Fin 256) :
    tDev (F := Ideal) z (ix2 i k) = z (ix2 i k) - Cert.Spec.rmean (rc z) k := by
  unfold tDev
  rw [subf_apply, rows_apply, tMeanRow_apply]

theorem tCentered_apply (z : A S10000x256) (i : Fin 10000) (k : Fin 256) :
    tCentered (F := Ideal) z (ix2 i k) = z (ix2 i k) - Cert.Spec.rmean (rc z) k := by
  unfold tCentered
  rw [subf_apply, rows_apply, row_apply, tMean_apply]

/-! ## The variance -/

/-- The normaliser: the row count less the integer zero read as a float. -/
theorem tNorm_apply : tNorm (F := Ideal) ix0 = Cert.Spec.nRows := by
  unfold tNorm
  rw [subf_apply, constant_apply, sitofp_apply]
  show Cert.Spec.nRows - (((0#32 : BitVec 32).toInt : ℝ) : EReal) = Cert.Spec.nRows
  have h0 : (0#32 : BitVec 32).toInt = 0 := by decide
  rw [h0, Int.cast_zero, EReal.coe_zero, sub_zero]

/-- The row count is above zero, so the comparison's word is one. -/
theorem cmp_nRows : Ideal.cmp .ogt Cert.Spec.nRows (Ideal.ofBits .f32 0x00000000#32) = 1#1 := by
  have h : (0 : EReal) < Cert.Spec.nRows := by
    rw [Cert.Spec.nRows_eq]
    exact_mod_cast (by norm_num : (0 : ℝ) < 10000)
  rw [Cert.Spec.zero_word]
  unfold Ideal.cmp
  simp [h]

theorem tVar_apply (z : A S10000x256) (k : Fin 256) :
    tVar (F := Ideal) z (ix1 k) = Cert.Spec.rvar (rc z) k := by
  unfold tVar Cert.Spec.rvar
  rw [select_apply, broadcastInDim_scalar_apply, cmpf_apply, tNorm_apply, constant_apply, Ideal.cmpf_def, cmp_nRows,
    select_one, hostDivf_apply, colSum_apply, broadcastInDim_scalar_apply, tNorm_apply]
  refine congrArg (Ideal.div · Cert.Spec.nRows) (Finset.sum_congr rfl fun i _ => ?_)
  rw [mulf_apply, tDev_apply]

theorem tStd_apply (z : A S10000x256) (k : Fin 256) :
    tStd (F := Ideal) z (ix1 k) = Ideal.sqrt (Cert.Spec.rvar (rc z) k + Cert.Spec.eps) := by
  unfold tStd
  show FloatOps.hostUnary .sqrt _ = _
  rw [Ideal.hostUnary_sqrt_def, addf_apply, tVar_apply, broadcastInDim_scalar_apply, constant_apply]
  rfl

/-! ## The normalised entry and the result -/

theorem tXn_apply (z : A S10000x256) (g be : A S256) (i : Fin 10000) (k : Fin 256) :
    tXn (F := Ideal) z g be (ix2 i k) = Cert.Spec.rxn (rc z) g be i k := by
  unfold tXn Cert.Spec.rxn
  rw [addf_apply, mulf_apply, hostDivf_apply, tCentered_apply, tRows_apply, tRows_apply, tRows_apply, tStd_apply]

/-- Wᵀ read at (k, n) is W at (n, k). -/
theorem wT_apply (W : A S128x256) (k : Fin 256) (n : Fin 128) :
    (transpose S256x128 [1, 0] W transposes_S128x256_S256x128_1_0 : A S256x128) (ix2 k n) = W (ix2 n k) :=
  transpose_apply _ W _ (ix2 k n) (ix2 n k) fun b => by
    match b with
    | ⟨0, _⟩ => rfl
    | ⟨1, _⟩ => rfl

/-- The bias laid along every row, read at (i, n). -/
theorem bias_apply (b : A S128) (i : Fin 10000) (n : Fin 128) :
    (broadcastInDim S10000x128 ![0, 1] bcast_S1x128_S10000x128_0_1 (broadcastInDim S1x128 ![1] bcast_S128_S1x128_1 b) : A S10000x128) (ix2 i n)
      = b (ix1 n) := by
  rw [broadcastInDim_apply _ _ _ (ix2 i n) (ix2 (0 : Fin 1) n) fun a => by
    match a with
    | ⟨0, _⟩ => rfl
    | ⟨1, _⟩ => rfl]
  exact broadcastInDim_apply _ _ b (ix2 (0 : Fin 1) n) (ix1 n) fun a => by
    match a with
    | ⟨0, _⟩ => rfl

/-- The composed term at row i, output n is the reference's reading. -/
theorem tOut_apply (x : A S10000x128) (adj : A S10000x10000) (g be : A S256) (W : A S128x256) (b : A S128)
    (i : Fin 10000) (n : Fin 128) :
    tOut (F := Ideal) x adj g be W b (ix2 i n) = Cert.Spec.rout x adj g be W b i n := by
  have hz : rc (tCat (F := Ideal) x adj) = Cert.Spec.xcat x (Cert.Spec.agg adj x) :=
    funext fun i => funext fun k => tCat_apply x adj i k
  unfold tOut Cert.Spec.rout
  rw [addf_apply, bias_apply]
  simp only [Host.dotGeneral]
  rw [Ideal.dotGeneral_apply,
    Cert.LibDense.sum_contr_plain _ rfl rfl (ix2 i n) (fun _ => rfl) (fun _ => rfl) (fun _ => rfl) (fun _ => rfl)]
  unfold Cert.LibDense.dense
  refine congrArg (· + b (ix1 n)) (Finset.sum_congr rfl fun k _ => ?_)
  rw [wT_apply]
  show tXn (F := Ideal) (tCat x adj) g be (ix2 i k) * W (ix2 n k) = _
  rw [tXn_apply, hz]

/-! ## The run -/

/-- At the compiled mesh, from any memory with zero counters: every weakly fair execution of the reference terminates
    with its result, index by index, at `Cert.Spec.rout` of the six argument arrays, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (∀ (i : Fin 10000) (n : Fin 128), r.2.mem ((c.tc : Thread nD τ).loc main_v25) (ix2 i n)
          = Cert.Spec.rout (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5)) i n)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := Ideal)) _ _).mono (fun _ h c => ⟨fun i n => (congrFun (h c).1 (ix2 i n)).trans (tOut_apply _ _ _ _ _ _ i n),
      (h c).2⟩) (run0 m ρ)

end Cert.ReferenceIdeal.RefValue

end
-- ==== Proof.Finite.lean ====
/-
  From the precondition to real entries.

  The precondition is the conjunction, over the six argument arrays, of "every entry's absolute value is below
  plus infinity". An extended real whose absolute value is below the top element is a real, so under the
  precondition every entry of every argument array is a real number.
-/
import proofs.«116730_g22660247454026_cont_sun_m_460_4_alg».proof.Pre_finite_inputs
import proofs.«116730_g22660247454026_cont_sun_m_460_4_alg».proof.Proof.Gen.Pre_finite_inputs
import proofs.«116730_g22660247454026_cont_sun_m_460_4_alg».proof.Proof.LibExtReal
import Idealize.ShloMosaic.Lib.ReduceAll
import Idealize.ShloMosaic.Lib.Affine
import Idealize.ShloMosaic.Lib.ValueIdx

noncomputable section

namespace Cert.Finite

open Idealize.ShloMosaic Cert.Pre_finite_inputs

instance : Subsingleton S_.Idx := ⟨fun a b => funext fun d => d.elim0⟩

/-- One conjunct: where "all entries have absolute value below plus infinity" evaluates to one, every entry is
    a real. -/
theorem real_of_all {s : Shape} {axes : List (Fin s.rank)} (x : FVec Ideal s .f32)
    (hb : S_.BroadcastsInDim s (![] : Fin 0 → Fin s.rank)) (h : s.ReducesTo axes S_) (hu : 0 < S_.numel)
    (e : Host.reduce IntOp.andi (cmpf .olt (Host.absf x) (broadcastInDim s ![] hb (constant S_ .f32 0x7F800000#32)))
      (constantI S_ 1 1#1) h hu ValueIdx.ix0 = 1#1) (i : s.Idx) : ∃ y : ℝ, x i = (y : EReal) := by
  have h1 := Host.reduce_andi_all _ _ h hu _ e i
  have h2 : Ideal.cmp .olt (max (x i) (-(x i))) (Ideal.ofBits .f32 0x7F800000#32) = 1#1 := h1
  have h3 := Cert.LibExtReal.lt_of_cmp_olt h2
  rw [Cert.LibExtReal.ofBits_inf] at h3
  exact Cert.LibExtReal.real_of_abs_lt_top _ h3

/-- Under the precondition every entry of every argument array is a real. -/
theorem reals_of_pre (a0 : FVec Ideal S10000x128 .f32) (a1 : FVec Ideal S10000x10000 .f32) (a2 a3 : FVec Ideal S256 .f32)
    (a4 : FVec Ideal S128x256 .f32) (a5 : FVec Ideal S128 .f32)
    (h : Cert.Pre_finite_inputs.fn (F := Ideal) a0 a1 a2 a3 a4 a5 = fun _ => 1#1) :
    (∀ i, ∃ y : ℝ, a0 i = (y : EReal)) ∧ (∀ i, ∃ y : ℝ, a1 i = (y : EReal)) ∧ (∀ i, ∃ y : ℝ, a2 i = (y : EReal))
      ∧ (∀ i, ∃ y : ℝ, a3 i = (y : EReal)) ∧ (∀ i, ∃ y : ℝ, a4 i = (y : EReal)) ∧ (∀ i, ∃ y : ℝ, a5 i = (y : EReal)) := by
  have h0 := congrFun h ValueIdx.ix0
  dsimp only [fn, fn_part1] at h0
  obtain ⟨h01234, e5⟩ := IntOp.andi_eq_one.1 h0
  obtain ⟨h0123, e4⟩ := IntOp.andi_eq_one.1 h01234
  obtain ⟨h012, e3⟩ := IntOp.andi_eq_one.1 h0123
  obtain ⟨h01, e2⟩ := IntOp.andi_eq_one.1 h012
  obtain ⟨e0, e1⟩ := IntOp.andi_eq_one.1 h01
  exact ⟨real_of_all a0 _ _ _ e0, real_of_all a1 _ _ _ e1, real_of_all a2 _ _ _ e2, real_of_all a3 _ _ _ e3,
    real_of_all a4 _ _ _ e4, real_of_all a5 _ _ _ e5⟩

end Cert.Finite

end
-- ==== Proof.lean ====
/-
  A graph layer — aggregate over the adjacency, concatenate, batch-normalise, apply a linear map — computed by
  a two-pass kernel and by its plain reference: the two agree over the extended reals on finite inputs.

  The kernel's first pass leaves a = adj·x and the column sums of x, x², a, a²; its second pass takes the mean
  and variance of each column from those sums (variance as mean of squares less squared mean, the row count's
  reciprocal the exact 1/10000), normalises both halves of [x | a] and multiplies each with its half of W. The
  reference takes the variance as the mean of squared deviations and makes one product over all 256 columns.
  On reals the two variances are one number, not negative, so the reciprocal square root of (variance + ε) is
  the reciprocal of a positive root on both sides, and a sum over 256 columns is the sum of its two halves.
  Finiteness of the inputs is what makes every sum a real; it is read off the precondition.

  The frames of the two kernel programs are the generated ones; the reference's is its run with the result
  dropped. The idealization named one constant, at four sites: each conjunct is that constant's value.
-/
import proofs.«116730_g22660247454026_cont_sun_m_460_4_alg».proof.Defs
import proofs.«116730_g22660247454026_cont_sun_m_460_4_alg».proof.Proof.Gen.Kernel
import proofs.«116730_g22660247454026_cont_sun_m_460_4_alg».proof.Proof.Gen.Kernel.Frame
import proofs.«116730_g22660247454026_cont_sun_m_460_4_alg».proof.Proof.Gen.KernelIdeal
import proofs.«116730_g22660247454026_cont_sun_m_460_4_alg».proof.Proof.Gen.KernelIdeal.Frame
import proofs.«116730_g22660247454026_cont_sun_m_460_4_alg».proof.Proof.Gen.ReferenceIdeal
import proofs.«116730_g22660247454026_cont_sun_m_460_4_alg».proof.Proof.Gen.Pre_finite_inputs
import proofs.«116730_g22660247454026_cont_sun_m_460_4_alg».proof.Proof.KRun
import proofs.«116730_g22660247454026_cont_sun_m_460_4_alg».proof.Proof.KValue
import proofs.«116730_g22660247454026_cont_sun_m_460_4_alg».proof.Proof.RefValue
import proofs.«116730_g22660247454026_cont_sun_m_460_4_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefValue.run m ρ)

/-- The named constant is 1/10000 at each of its four sites. -/
theorem preserves : Cert.preserves_Kernel_KernelIdeal :=
  ⟨IdealRules.named_const.statement Cert.KernelIdeal.κ "inv_10000" .f32 0x38D1B717#32 ((1 / 10000 : ℝ) : EReal) rfl,
   IdealRules.named_const.statement Cert.KernelIdeal.κ "inv_10000" .f32 0x38D1B717#32 ((1 / 10000 : ℝ) : EReal) rfl,
   IdealRules.named_const.statement Cert.KernelIdeal.κ "inv_10000" .f32 0x38D1B717#32 ((1 / 10000 : ℝ) : EReal) rfl,
   IdealRules.named_const.statement Cert.KernelIdeal.κ "inv_10000" .f32 0x38D1B717#32 ((1 / 10000 : ℝ) : EReal) rfl⟩

/-- Both runs end with the result buffer at the reference's function of arguments that agree. -/
theorem algebraic : Cert.algebraic_KernelIdeal_ReferenceIdeal := by
  intro m ρ m' ρ' hpre hagree
  refine ⟨fun c => Cert.KernelIdeal.Gen.W4 m ρ c (Proc.devRef .tc Cert.KernelIdeal.main_v7),
    Cert.KernelIdeal.KRun.run_named (F := Ideal) m ρ, ?_⟩
  refine (θ_run Cert.ReferenceIdeal.defs _ _).mono (fun r h c => ⟨?_, (h c).2⟩)
    (Cert.ReferenceIdeal.RefValue.run m' ρ')
  obtain ⟨hx, hadj, hg, hbe, -, -⟩ := Cert.Finite.reals_of_pre _ _ _ _ _ _ (hpre c)
  funext j
  obtain ⟨i, n, rfl⟩ : ∃ (i : Fin 10000) (n : Fin 128), j = ValueIdx.ix2 i n :=
    ⟨j 0, j 1, ValueIdx.eq_ix2 (n0 := 10000) (n1 := 128) j⟩
  refine ((h c).1 i n).trans ?_
  rw [(hagree c).1, (hagree c).2.1, (hagree c).2.2.1, (hagree c).2.2.2.1, (hagree c).2.2.2.2.1, (hagree c).2.2.2.2.2]
  exact (Cert.KernelIdeal.KValue.result_eq m ρ c hx hadj hg hbe i n).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
